-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S128x128 : Shape := ⟨2, ![128, 128]⟩
abbrev S50000x64 : Shape := ⟨2, ![50000, 64]⟩

abbrev nBuf : Space → Nat
  | .hbm => 77
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000x128, .f32⟩
  | .hbm, ⟨35, _⟩ => ⟨S_, .f32⟩
  | .hbm, ⟨36, _⟩ => ⟨S50000x128, .f32⟩
  | .hbm, ⟨37, _⟩ => ⟨S850000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S_, .f32⟩
  | .hbm, ⟨46, _⟩ => ⟨S50000x128, .f32⟩
  | .hbm, ⟨47, _⟩ => ⟨S50000x128, .i1⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S128x128, .f32⟩
  | .hbm, ⟨53, _⟩ => ⟨S128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x64, .f32⟩
  | .hbm, ⟨76, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S128x64_S128x64_S128x128_d1 : Shape.Concatenates [S128x64, S128x64] S128x128 1
  concatenates_S64_S64_S128_d0 : Shape.Concatenates [S64, S64] S128 0
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x64_0_0 : S50000x128.Slices ![0, 0] S50000x64
  slices_S50000x128_S50000x64_0_64 : S50000x128.Slices ![0, 64] S50000x64
  scatter_S50000_S850000x1_S850000_n_0_0_1_wf : ScatterDims.WF S50000 S850000x1 S850000 [] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 147
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S50000, .f32⟩
  | 22 => ⟨S50000x128, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S850000x1, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000x128, .f32⟩
  | 52 => ⟨S850000x128, .f32⟩
  | 53 => ⟨S850000x128, .f32⟩
  | 54 => ⟨S_, .f32⟩
  | 55 => ⟨S50000x128, .f32⟩
  | 56 => ⟨S850000x1, .i32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S_, .f32⟩
  | 63 => ⟨S50000x128, .f32⟩
  | 64 => ⟨S50000x128, .i1⟩
  | 65 => ⟨S_, .f32⟩
  | 66 => ⟨S50000x128, .f32⟩
  | 67 => ⟨S50000x128, .f32⟩
  | 68 => ⟨S50000x128, .f32⟩
  | 69 => ⟨S50000x64, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000, .f32⟩
  | 88 => ⟨S850000, .f32⟩
  | 89 => ⟨S850000x1, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x64, .f32⟩
  | 99 => ⟨S850000x64, .f32⟩
  | 100 => ⟨S850000x64, .f32⟩
  | 101 => ⟨S_, .f32⟩
  | 102 => ⟨S50000x64, .f32⟩
  | 103 => ⟨S850000x1, .i32⟩
  | 104 => ⟨S50000x64, .f32⟩
  | 105 => ⟨S1x64, .f32⟩
  | 106 => ⟨S50000x64, .f32⟩
  | 107 => ⟨S50000x64, .f32⟩
  | 108 => ⟨S50000x64, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000, .f32⟩
  | 127 => ⟨S850000, .f32⟩
  | _ => ⟨S50000x256, .f32⟩

abbrev hbmTy0_1 (i : Nat) : BufTy := match i % 128 with
  | 0 => ⟨S850000x1, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000x64, .f32⟩
  | 10 => ⟨S850000x64, .f32⟩
  | 11 => ⟨S850000x64, .f32⟩
  | 12 => ⟨S_, .f32⟩
  | 13 => ⟨S50000x64, .f32⟩
  | 14 => ⟨S850000x1, .i32⟩
  | 15 => ⟨S50000x64, .f32⟩
  | 16 => ⟨S1x64, .f32⟩
  | 17 => ⟨S50000x64, .f32⟩
  | 18 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_15 : Ref sig .tc := ⟨.hbm, 109, rfl⟩
abbrev main_v78 : Ref sig .tc := ⟨.hbm, 110, rfl⟩
abbrev main_v79 : Ref sig .tc := ⟨.hbm, 111, rfl⟩
abbrev main_c_16 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_17 : Ref sig .tc := ⟨.hbm, 118, rfl⟩
abbrev main_v85 : Ref sig .tc := ⟨.hbm, 119, rfl⟩
abbrev main_v86 : Ref sig .tc := ⟨.hbm, 120, rfl⟩
abbrev main_c_18 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_19 : Ref sig .tc := ⟨.hbm, 129, rfl⟩
abbrev main_v94 : Ref sig .tc := ⟨.hbm, 130, rfl⟩
abbrev main_v95 : Ref sig .tc := ⟨.hbm, 131, rfl⟩
abbrev main_c_20 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_21 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S50000x256_S256x128_S50000x128_1_0_0_1_n_n_wf : DotDims.WF S50000x256 S256x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KerTerm.lean ====
/-
  The kernel program's result, as ONE pure term of its eight argument arrays, cut into named stages.

  The same graph convolution as the reference's, rearranged: with `dis = deg^(-1/2)` a layer first scales every
  node's row by `dis` at that node, gathers the scaled rows of the edges' sources, adds them up at the
  destinations and scales the sum by `dis` at the destination,
  `out[n, f] = dis[n] · Σ_{e : dst e = n} (h[src e, f] · dis[src e]) + b[f]`;
  the two output heads are one layer on the 128 columns `[W_mu | W_logvar]`, cut into its halves at the end. The two
  matrix products are the two kernel regions (`mm0`, `mm1`: each output row block is the product of the input row
  block with the whole weight matrix, so the array is the whole product).
-/
import proofs.«131130_j62904091018060_2_alg».proof.Proof.Gen.KernelIdeal
import Idealize.ShloMosaic.PureOps.Ideal
import Idealize.ShloMosaic.Lib.ValueIdx

noncomputable section

namespace Cert.KernelIdeal.KerTerm

open Cert.KernelIdeal Idealize.ShloMosaic
open Cert.KernelIdeal.Facts₀

/-- The self loops' node numbers `0 … 49999`. -/
def loops : IVec S50000 32 := iotaInDim S50000 32 0
def row0 (ei : IVec S2x800000 32) : IVec S800000 32 :=
  shapeCast S800000 (extractStridedSlice S1x800000 ![0, 0] ei slices_S2x800000_S1x800000_0_0) shapeCasts_S1x800000_S800000
def row1 (ei : IVec S2x800000 32) : IVec S800000 32 :=
  shapeCast S800000 (extractStridedSlice S1x800000 ![1, 0] ei slices_S2x800000_S1x800000_1_0) shapeCasts_S1x800000_S800000
/-- Sources and destinations of all 850000 edges: the given ones, then the self loops. -/
def src (ei : IVec S2x800000 32) : IVec S850000 32 :=
  concatenate S850000 0 [⟨S800000, row0 ei⟩, ⟨S50000, loops⟩] concatenates_S800000_S50000_S850000_d0
def dst (ei : IVec S2x800000 32) : IVec S850000 32 :=
  concatenate S850000 0 [⟨S800000, row1 ei⟩, ⟨S50000, loops⟩] concatenates_S800000_S50000_S850000_d0
def col (v : IVec S850000 32) : IVec S850000x1 32 := broadcastInDim S850000x1 ![0] bcast_S850000_S850000x1_0 v
/-- A negative node number counted from the end (`v + 50000`), the others kept. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v
/-- The number of edges arriving at each node. -/
def deg (ei : IVec S2x800000 32) : FVec Ideal S50000 .f32 :=
  Host.scatterAdd scatter_S50000_S850000x1_S850000_n_0_0_1
    (broadcastInDim S50000 ![] bcast_S_S50000 (constant S_ .f32 0x00000000#32)) (col (dst ei))
    (broadcastInDim S850000 ![] bcast_S_S850000 (constant S_ .f32 0x3F800000#32))
def dis (ei : IVec S2x800000 32) : FVec Ideal S50000 .f32 := Host.rsqrt (deg ei)
/-- `dis` as a column, and spread over the 128 feature columns. -/
def disC (ei : IVec S2x800000 32) : FVec Ideal S50000x1 .f32 := broadcastInDim S50000x1 ![0] bcast_S50000_S50000x1_0 (dis ei)
def disB (ei : IVec S2x800000 32) : FVec Ideal S50000x128 .f32 :=
  broadcastInDim S50000x128 ![0, 1] bcast_S50000x1_S50000x128_0_1 (disC ei)
/-- One layer on 128 features: scale, gather the sources' rows, add up at the destinations, scale, add the bias. -/
def conv (ei : IVec S2x800000 32) (h : FVec Ideal S50000x128 .f32) (b : FVec Ideal S128 .f32) : FVec Ideal S50000x128 .f32 :=
  addf
    (mulf (disB ei)
      (Host.scatterAdd scatter_S50000x128_S850000x1_S850000x128_1_0_0_1
        (broadcastInDim S50000x128 ![] bcast_S_S50000x128 (constant S_ .f32 0x00000000#32)) (col (dst ei))
        (Host.gather gather_S50000x128_S850000x1_S850000x128_1_0_n_n_0_1_1128 (mulf h (disB ei)) (col (wrap (src ei))))))
    (broadcastInDim S50000x128 ![0, 1] bcast_S1x128_S50000x128_0_1 (broadcastInDim S1x128 ![1] bcast_S128_S1x128_1 b))
/-- `x` where `x ≥ 0`, else `slope · x`. -/
def leaky (x : FVec Ideal S50000x128 .f32) : FVec Ideal S50000x128 .f32 :=
  select (cmpf .oge x (broadcastInDim S50000x128 ![] bcast_S_S50000x128 (constant S_ .f32 0x00000000#32))) x
    (mulf (broadcastInDim S50000x128 ![] bcast_S_S50000x128 (id (constant S_ .f32 0x3C23D70A#32))) x)
/-- Region 0's array after the region: the whole product `x · W1`. -/
def mm0 (x : FVec Ideal S50000x256 .f32) (w : FVec Ideal S256x128 .f32) : FVec Ideal S50000x128 .f32 :=
  fun i => ∑ k : Fin 256, x (ValueIdx.ix2 (⟨(i 0).val, ValueIdx.idx2_lt0 i⟩ : Fin 50000) k)
    * w (ValueIdx.ix2 k (⟨(i 1).val, ValueIdx.idx2_lt1 i⟩ : Fin 128))
/-- Region 1's array after the region: the whole product `h · [W_mu | W_logvar]`. -/
def mm1 (h : FVec Ideal S50000x128 .f32) (w : FVec Ideal S128x128 .f32) : FVec Ideal S50000x128 .f32 :=
  fun i => ∑ k : Fin 128, h (ValueIdx.ix2 (⟨(i 0).val, ValueIdx.idx2_lt0 i⟩ : Fin 50000) k)
    * w (ValueIdx.ix2 k (⟨(i 1).val, ValueIdx.idx2_lt1 i⟩ : Fin 128))
/-- The two heads' weights side by side, and their biases end to end. -/
def wcat (Wmu Wlv : FVec Ideal S128x64 .f32) : FVec Ideal S128x128 .f32 :=
  concatenate S128x128 1 [⟨S128x64, Wmu⟩, ⟨S128x64, Wlv⟩] concatenates_S128x64_S128x64_S128x128_d1
def bcat (bmu blv : FVec Ideal S64 .f32) : FVec Ideal S128 .f32 :=
  concatenate S128 0 [⟨S64, bmu⟩, ⟨S64, blv⟩] concatenates_S64_S64_S128_d0
/-- The hidden layer. -/
def hid (x : FVec Ideal S50000x256 .f32) (ei : IVec S2x800000 32) (W1 : FVec Ideal S256x128 .f32) (b1 : FVec Ideal S128 .f32) :
    FVec Ideal S50000x128 .f32 :=
  leaky (conv ei (mm0 x W1) b1)
/-- Both heads at once, 128 columns. -/
def out (x : FVec Ideal S50000x256 .f32) (ei : IVec S2x800000 32) (W1 : FVec Ideal S256x128 .f32) (b1 : FVec Ideal S128 .f32)
    (Wmu : FVec Ideal S128x64 .f32) (bmu : FVec Ideal S64 .f32) (Wlv : FVec Ideal S128x64 .f32) (blv : FVec Ideal S64 .f32) :
    FVec Ideal S50000x128 .f32 :=
  conv ei (mm1 (hid x ei W1 b1) (wcat Wmu Wlv)) (bcat bmu blv)
/-- The mean: columns 0 … 63. -/
def mu (x : FVec Ideal S50000x256 .f32) (ei : IVec S2x800000 32) (W1 : FVec Ideal S256x128 .f32) (b1 : FVec Ideal S128 .f32)
    (Wmu : FVec Ideal S128x64 .f32) (bmu : FVec Ideal S64 .f32) (Wlv : FVec Ideal S128x64 .f32) (blv : FVec Ideal S64 .f32) :
    FVec Ideal S50000x64 .f32 :=
  extractStridedSlice S50000x64 ![0, 0] (out x ei W1 b1 Wmu bmu Wlv blv) slices_S50000x128_S50000x64_0_0
/-- The log-variance: columns 64 … 127. -/
def lv (x : FVec Ideal S50000x256 .f32) (ei : IVec S2x800000 32) (W1 : FVec Ideal S256x128 .f32) (b1 : FVec Ideal S128 .f32)
    (Wmu : FVec Ideal S128x64 .f32) (bmu : FVec Ideal S64 .f32) (Wlv : FVec Ideal S128x64 .f32) (blv : FVec Ideal S64 .f32) :
    FVec Ideal S50000x64 .f32 :=
  extractStridedSlice S50000x64 ![0, 64] (out x ei W1 b1 Wmu bmu Wlv blv) slices_S50000x128_S50000x64_0_64

end Cert.KernelIdeal.KerTerm

end
-- ==== Proof.KerRegion.lean ====
/-
  The two kernel regions' output arrays, as whole matrix products.

  Each region walks a grid of 10 points. At point t it reads rows 5000·t … 5000·t + 4999 of its left operand (an array
  [50000, K]; K = 256 in region 0, K = 128 in region 1), reads the whole right operand [K, 128], and writes the product
  of the two to rows 5000·t … 5000·t + 4999 of its result [50000, 128]. Entry (r, j) of a row block's product is
  Σ_k left[5000·t + r, k] · right[k, j], which is entry (5000·t + r, j) of the whole product left · right; the ten row
  blocks tile the result (row r lies in block r / 5000), so after the last point the result is the whole product.
  At the ideal values the change of float format on the way into the product is the identity, and a product
  accumulated into zero is the plain sum over the contracted index k.
-/
import proofs.«131130_j62904091018060_2_alg».proof.Proof.KerTerm
import proofs.«131130_j62904091018060_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.KerRegion

open Cert.KernelIdeal Idealize.ShloMosaic Idealize.ShloMosaic.TcCoe Idealize.SL.Sem
open Idealize.ShloMosaic.ValueIdx
open scoped BigOperators

/-- The offsets (0, 0), as the constant function. -/
theorem hz : (![0, 0] : Fin 2 → Nat) = fun _ => 0 := funext fun a => by fin_cases a <;> rfl

/-! ## Region 0: x [50000, 256] times W1 [256, 128] -/

/-- A row block's product read at an entry: entry (p, q) of the body's result on a block x0 [5000, 256] and the
    weights x1 [256, 128] is Σ_k x0[p, k] · x1[k, q] — the contraction runs over the one shared axis of extent 256,
    and the left operand is read at (p, k), the right at (k, q). -/
theorem pay0_apply (x0 : Vec Ideal S5000x256 .f32) (x1 : Vec Ideal S256x128 .f32) (p : Fin 5000) (q : Fin 128) :
    Gen.k0_pay1 (F := Ideal) x0 x1 (ix2 p q) = ∑ k : Fin 256, x0 (ix2 p k) * x1 (ix2 k q) := by
  unfold Gen.k0_pay1
  show FloatOps.matmul dot_S5000x256_S256x128_S5000x128_1_0_0_1_n_n none
      (truncf .bf16 x0 Gen.bitsLt_bf16_f32 : FVec Ideal S5000x256 .bf16) (truncf .bf16 x1 Gen.bitsLt_bf16_f32 : FVec Ideal S256x128 .bf16)
      (constant S5000x128 .f32 0x00000000#32) (ix2 p q) = _
  rw [Ideal.matmul_constant_zero_apply,
    ← Equiv.sum_comp (contrEquiv1 dot_S5000x256_S256x128_S5000x128_1_0_0_1_n_n 256 rfl rfl).symm]
  refine Finset.sum_congr rfl fun k _ => ?_
  have ck := contrEquiv1_symm_val dot_S5000x256_S256x128_S5000x128_1_0_0_1_n_n 256 rfl rfl k
  have l2 : dot_S5000x256_S256x128_S5000x128_1_0_0_1_n_n.lhsIdx (ix2 p q)
      ((contrEquiv1 dot_S5000x256_S256x128_S5000x128_1_0_0_1_n_n 256 rfl rfl).symm k) = ix2 p k := by
    funext ax; apply Fin.ext
    match ax with
    | ⟨0, _⟩ => simp [DotDims.lhsIdx, dot_S5000x256_S256x128_S5000x128_1_0_0_1_n_n]; rfl
    | ⟨1, _⟩ => simp [DotDims.lhsIdx, dot_S5000x256_S256x128_S5000x128_1_0_0_1_n_n]; exact ck
  have r2 : dot_S5000x256_S256x128_S5000x128_1_0_0_1_n_n.rhsIdx (ix2 p q)
      ((contrEquiv1 dot_S5000x256_S256x128_S5000x128_1_0_0_1_n_n 256 rfl rfl).symm k) = ix2 k q := by
    funext ax; apply Fin.ext
    match ax with
    | ⟨0, _⟩ => simp [DotDims.rhsIdx, dot_S5000x256_S256x128_S5000x128_1_0_0_1_n_n]; exact ck
    | ⟨1, _⟩ => simp [DotDims.rhsIdx, dot_S5000x256_S256x128_S5000x128_1_0_0_1_n_n]; rfl
  rw [l2, r2]
  rfl

/-- The block indices at grid point t: the left operand's and the result's row block is t (column block 0), the
    weights' block is always (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of one row block: if x0 is rows 5000·n … 5000·n + 4999 of X and x1 is W, then entry y of the block's
    product is entry i of the whole product X · W, where i is y moved down by 5000·n rows. -/
theorem point0 (X : FVec Ideal S50000x256 .f32) (W : FVec Ideal S256x128 .f32)
    (x0 : Vec Ideal S5000x256 .f32) (x1 : Vec Ideal S256x128 .f32) (n : Nat)
    (h0 : ∀ (p : Fin 5000) (k : Fin 256) (r : Fin 50000), r.val = 5000 * n + p.val → x0 (ix2 p k) = X (ix2 r k))
    (h1 : ∀ (k : Fin 256) (q : Fin 128), x1 (ix2 k q) = W (ix2 k q))
    (y : S5000x128.Idx) (i : S50000x128.Idx) (hi0 : (i 0).val = 5000 * n + (y 0).val) (hi1 : (i 1).val = (y 1).val) :
    Gen.k0_pay1 (F := Ideal) x0 x1 y = KerTerm.mm0 X W i := by
  obtain ⟨p, q, rfl⟩ : ∃ (p : Fin 5000) (q : Fin 128), y = ix2 p q := ⟨y 0, y 1, eq_ix2 y⟩
  rw [pay0_apply]
  unfold KerTerm.mm0
  refine Finset.sum_congr rfl fun k _ => ?_
  have hq : q = (⟨(i 1).val, idx2_lt1 i⟩ : Fin 128) := Fin.ext hi1.symm
  rw [h0 p k ⟨(i 0).val, idx2_lt0 i⟩ hi0, h1 k q, hq]

section Region0
variable (V : (c : Dev nD) → (b : Ref sig .tc) → Buf (Elt Ideal) ((c : Thread nD τ).loc b))

/-- The left operand's block at point t is rows 5000·t … 5000·t + 4999 of x. -/
theorem iblk0_0_apply (c : Dev nD) (t : Fin cfg0.N) (p : Fin 5000) (k : Fin 256) (r : Fin 50000)
    (hr : r.val = 5000 * t.val + p.val) :
    (Gen.iblk0 V c 0 t : Vec Ideal S5000x256 .f32) (ix2 p k) = (V c main_arg0 : S50000x256.Idx → Elt Ideal .f32) (ix2 r k) := by
  obtain ⟨e0, e1, -⟩ := idx0 t
  unfold Gen.iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 256 + 1 * k.val = k.val; rw [e1]; omega

/-- The right operand's block at every point is all of W1. -/
theorem iblk0_1_apply (c : Dev nD) (t : Fin cfg0.N) (k : Fin 256) (q : Fin 128) :
    (Gen.iblk0 V c 1 t : Vec Ideal S256x128 .f32) (ix2 k q) = (V c main_arg2 : S256x128.Idx → Elt Ideal .f32) (ix2 k q) := by
  obtain ⟨-, -, e0, e1, -⟩ := idx0 t
  unfold Gen.iblk0
  rw [View.read_apply]
  show V c main_arg2 _ = V c main_arg2 _
  congr 1
  funext a
  apply Fin.ext
  match a with
  | ⟨0, _⟩ => show win0_1.index t 0 * 256 + 1 * k.val = k.val; rw [e0]; omega
  | ⟨1, _⟩ => show win0_1.index t 1 * 128 + 1 * q.val = q.val; rw [e1]; omega

/-- What point t writes back is rows 5000·t … 5000·t + 4999 of the whole product x · W1. -/
theorem flushed0_eq (c : Dev nD) (t : Fin cfg0.N) :
    (Gen.dat0 (F := Ideal) V c).flushed 2 t
      = ((cfg0.win 2).blk t).view.read (Elt Ideal) (KerTerm.mm0 (V c main_arg0) (V c main_arg2)) := by
  show (cfg0.win 2).cut (grid0.coords t) ((Gen.dat0 V c).after 2 t) = _
  rw [Gen.after0_2]
  unfold Gen.out0_2
  rw [View.canon_unit_zero hz]
  simp only [View.ld_unit_zero (S := S5000x256) hz, View.ld_unit_zero (S := S256x128) hz]
  funext y
  rw [View.read_apply]
  obtain ⟨-, -, -, -, e0, e1⟩ := idx0 t
  show Gen.k0_pay1 (F := Ideal) (Gen.iblk0 V c 0 t) (Gen.iblk0 V c 1 t) _
    = KerTerm.mm0 (V c main_arg0) (V c main_arg2) (((cfg0.win 2).blk t).view.emb y)
  refine point0 (V c main_arg0) (V c main_arg2) (Gen.iblk0 V c 0 t) (Gen.iblk0 V c 1 t) t.val
    (fun p k r hr => iblk0_0_apply V c t p k r hr) (fun k q => iblk0_1_apply V c t k q)
    _ (((cfg0.win 2).blk t).view.emb y) ?_ ?_
  · show win0_2.index t 0 * 5000 + 1 * (y 0).val = 5000 * t.val + (y 0).val
    rw [e0]; omega
  · show win0_2.index t 1 * 128 + 1 * (y 1).val = (y 1).val
    rw [e1]; omega

/-- An entry of the result lies in point t's block iff, on each axis, its coordinate lies in the block's range. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v13).slice (win0_2.rect t)).set ↔ _
  rw [View.set_slice_whole, Rect.mem_set_unit]
  exact Iff.rfl

end Region0

/-- Region 0: whatever the buffers hold when it is entered (`V`), its output array ends at the whole product of
    its two input arrays: every point writes its row block of the product, and row r lies in the block of point
    r / 5000. -/
theorem region0 (V : (c : Dev nD) → (b : Ref sig .tc) → Buf (Elt Ideal) ((c : Thread nD τ).loc b)) (c : Dev nD) :
    (Gen.dat0 (F := Ideal) V c).arrAt 2 cfg0.N = KerTerm.mm0 (V c main_arg0) (V c main_arg2) :=
  (Gen.dat0 (F := Ideal) V c).arrAt_eq_of_cover 2 (KerTerm.mm0 (V c main_arg0) (V c main_arg2))
    (fun t _ => flushed0_eq V c t) fun i => by
      have hi0 : (i 0).val < 50000 := (i 0).isLt
      have hi1 : (i 1).val < 128 := (i 1).isLt
      have hN : cfg0.N = 10 := Gen.N_0
      have ht : (i 0).val / 5000 < cfg0.N := by rw [hN]; omega
      obtain ⟨-, -, -, -, e0, e1⟩ := idx0 ⟨(i 0).val / 5000, ht⟩
      refine ⟨⟨(i 0).val / 5000, ht⟩, Gen.flush0_2 _, ?_⟩
      rw [mem_blk0]
      intro a
      match a with
      | ⟨0, _⟩ =>
        show win0_2.index ⟨(i 0).val / 5000, ht⟩ (0 : Fin 2) * 5000 ≤ (i 0).val
          ∧ (i 0).val < win0_2.index ⟨(i 0).val / 5000, ht⟩ (0 : Fin 2) * 5000 + 5000
        rw [e0]; show (i 0).val / 5000 * 5000 ≤ (i 0).val ∧ (i 0).val < (i 0).val / 5000 * 5000 + 5000; omega
      | ⟨1, _⟩ =>
        show win0_2.index ⟨(i 0).val / 5000, ht⟩ (1 : Fin 2) * 128 ≤ (i 1).val
          ∧ (i 1).val < win0_2.index ⟨(i 0).val / 5000, ht⟩ (1 : Fin 2) * 128 + 128
        rw [e1]; omega

/-! ## Region 1: h [50000, 128] times [W_mu | W_logvar] [128, 128] — the same steps with the contraction over 128 -/

/-- A row block's product read at an entry: entry (p, q) of the body's result on a block x0 [5000, 128] and the
    weights x1 [128, 128] is Σ_k x0[p, k] · x1[k, q] (the two reshapes to the same shape in front are the identity). -/
theorem pay1_apply (x0 : Vec Ideal S5000x128 .f32) (x1 : Vec Ideal S128x128 .f32) (p : Fin 5000) (q : Fin 128) :
    Gen.k1_pay1 (F := Ideal) x0 x1 (ix2 p q) = ∑ k : Fin 128, x0 (ix2 p k) * x1 (ix2 k q) := by
  unfold Gen.k1_pay1
  simp only [shapeCast_self]
  show FloatOps.matmul dot_S5000x128_S128x128_S5000x128_1_0_0_1_n_n none
      (truncf .bf16 x0 Gen.bitsLt_bf16_f32 : FVec Ideal S5000x128 .bf16) (truncf .bf16 x1 Gen.bitsLt_bf16_f32 : FVec Ideal S128x128 .bf16)
      (constant S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have l2 : dot_S5000x128_S128x128_S5000x128_1_0_0_1_n_n.lhsIdx (ix2 p q)
      ((contrEquiv1 dot_S5000x128_S128x128_S5000x128_1_0_0_1_n_n 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact ck
  have r2 : dot_S5000x128_S128x128_S5000x128_1_0_0_1_n_n.rhsIdx (ix2 p q)
      ((contrEquiv1 dot_S5000x128_S128x128_S5000x128_1_0_0_1_n_n 128 rfl rfl).symm k) = ix2 k q := by
    funext ax; apply Fin.ext
    match ax with
    | ⟨0, _⟩ => simp [DotDims.rhsIdx, dot_S5000x128_S128x128_S5000x128_1_0_0_1_n_n]; exact ck
    | ⟨1, _⟩ => simp [DotDims.rhsIdx, dot_S5000x128_S128x128_S5000x128_1_0_0_1_n_n]; rfl
  rw [l2, r2]
  rfl

/-- The block indices at grid point t: the left operand's and the result's row block is t (column block 0), the
    weights' block is always (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of one row block: if x0 is rows 5000·n … 5000·n + 4999 of X and x1 is W, then entry y of the block's
    product is entry i of the whole product X · W, where i is y moved down by 5000·n rows. -/
theorem point1 (X : FVec Ideal S50000x128 .f32) (W : FVec Ideal S128x128 .f32)
    (x0 : Vec Ideal S5000x128 .f32) (x1 : Vec Ideal S128x128 .f32) (n : Nat)
    (h0 : ∀ (p : Fin 5000) (k : Fin 128) (r : Fin 50000), r.val = 5000 * n + p.val → x0 (ix2 p k) = X (ix2 r k))
    (h1 : ∀ (k : Fin 128) (q : Fin 128), x1 (ix2 k q) = W (ix2 k q))
    (y : S5000x128.Idx) (i : S50000x128.Idx) (hi0 : (i 0).val = 5000 * n + (y 0).val) (hi1 : (i 1).val = (y 1).val) :
    Gen.k1_pay1 (F := Ideal) x0 x1 y = KerTerm.mm1 X W i := by
  obtain ⟨p, q, rfl⟩ : ∃ (p : Fin 5000) (q : Fin 128), y = ix2 p q := ⟨y 0, y 1, eq_ix2 y⟩
  rw [pay1_apply]
  unfold KerTerm.mm1
  refine Finset.sum_congr rfl fun k _ => ?_
  have hq : q = (⟨(i 1).val, idx2_lt1 i⟩ : Fin 128) := Fin.ext hi1.symm
  rw [h0 p k ⟨(i 0).val, idx2_lt0 i⟩ hi0, h1 k q, hq]

section Region1
variable (V : (c : Dev nD) → (b : Ref sig .tc) → Buf (Elt Ideal) ((c : Thread nD τ).loc b))

/-- The left operand's block at point t is rows 5000·t … 5000·t + 4999 of h. -/
theorem iblk1_0_apply (c : Dev nD) (t : Fin cfg1.N) (p : Fin 5000) (k : Fin 128) (r : Fin 50000)
    (hr : r.val = 5000 * t.val + p.val) :
    (Gen.iblk1 V c 0 t : Vec Ideal S5000x128 .f32) (ix2 p k) = (V c main_v31 : S50000x128.Idx → Elt Ideal .f32) (ix2 r k) := by
  obtain ⟨e0, e1, -⟩ := idx1 t
  unfold Gen.iblk1
  rw [View.read_apply]
  show V c main_v31 _ = V c main_v31 _
  congr 1
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

/-- The right operand's block at every point is all of the weights. -/
theorem iblk1_1_apply (c : Dev nD) (t : Fin cfg1.N) (k : Fin 128) (q : Fin 128) :
    (Gen.iblk1 V c 1 t : Vec Ideal S128x128 .f32) (ix2 k q) = (V c main_v32 : S128x128.Idx → Elt Ideal .f32) (ix2 k q) := by
  obtain ⟨-, -, e0, e1, -⟩ := idx1 t
  unfold Gen.iblk1
  rw [View.read_apply]
  show V c main_v32 _ = V c main_v32 _
  congr 1
  funext a
  apply Fin.ext
  match a with
  | ⟨0, _⟩ => show win1_1.index t 0 * 128 + 1 * k.val = k.val; rw [e0]; omega
  | ⟨1, _⟩ => show win1_1.index t 1 * 128 + 1 * q.val = q.val; rw [e1]; omega

/-- What point t writes back is rows 5000·t … 5000·t + 4999 of the whole product h · [W_mu | W_logvar]. -/
theorem flushed1_eq (c : Dev nD) (t : Fin cfg1.N) :
    (Gen.dat1 (F := Ideal) V c).flushed 2 t
      = ((cfg1.win 2).blk t).view.read (Elt Ideal) (KerTerm.mm1 (V c main_v31) (V c main_v32)) := by
  show (cfg1.win 2).cut (grid1.coords t) ((Gen.dat1 V c).after 2 t) = _
  rw [Gen.after1_2]
  unfold Gen.out1_2
  rw [View.canon_unit_zero hz]
  simp only [View.ld_unit_zero (S := S5000x128) hz, View.ld_unit_zero (S := S128x128) hz]
  funext y
  rw [View.read_apply]
  obtain ⟨-, -, -, -, e0, e1⟩ := idx1 t
  show Gen.k1_pay1 (F := Ideal) (Gen.iblk1 V c 0 t) (Gen.iblk1 V c 1 t) _
    = KerTerm.mm1 (V c main_v31) (V c main_v32) (((cfg1.win 2).blk t).view.emb y)
  refine point1 (V c main_v31) (V c main_v32) (Gen.iblk1 V c 0 t) (Gen.iblk1 V c 1 t) t.val
    (fun p k r hr => iblk1_0_apply V c t p k r hr) (fun k q => iblk1_1_apply V c t k q)
    _ (((cfg1.win 2).blk t).view.emb y) ?_ ?_
  · show win1_2.index t 0 * 5000 + 1 * (y 0).val = 5000 * t.val + (y 0).val
    rw [e0]; omega
  · show win1_2.index t 1 * 128 + 1 * (y 1).val = (y 1).val
    rw [e1]; omega

/-- An entry of the result lies in point t's block iff, on each axis, its coordinate lies in the block's range. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v34).slice (win1_2.rect t)).set ↔ _
  rw [View.set_slice_whole, Rect.mem_set_unit]
  exact Iff.rfl

end Region1

/-- Region 1 likewise: its output array ends at the whole product of its two input arrays. -/
theorem region1 (V : (c : Dev nD) → (b : Ref sig .tc) → Buf (Elt Ideal) ((c : Thread nD τ).loc b)) (c : Dev nD) :
    (Gen.dat1 (F := Ideal) V c).arrAt 2 cfg1.N = KerTerm.mm1 (V c main_v31) (V c main_v32) :=
  (Gen.dat1 (F := Ideal) V c).arrAt_eq_of_cover 2 (KerTerm.mm1 (V c main_v31) (V c main_v32))
    (fun t _ => flushed1_eq V c t) fun i => by
      have hi0 : (i 0).val < 50000 := (i 0).isLt
      have hi1 : (i 1).val < 128 := (i 1).isLt
      have hN : cfg1.N = 10 := Gen.N_1
      have ht : (i 0).val / 5000 < cfg1.N := by rw [hN]; omega
      obtain ⟨-, -, -, -, e0, e1⟩ := idx1 ⟨(i 0).val / 5000, ht⟩
      refine ⟨⟨(i 0).val / 5000, ht⟩, Gen.flush1_2 _, ?_⟩
      rw [mem_blk1]
      intro a
      match a with
      | ⟨0, _⟩ =>
        show win1_2.index ⟨(i 0).val / 5000, ht⟩ (0 : Fin 2) * 5000 ≤ (i 0).val
          ∧ (i 0).val < win1_2.index ⟨(i 0).val / 5000, ht⟩ (0 : Fin 2) * 5000 + 5000
        rw [e0]; show (i 0).val / 5000 * 5000 ≤ (i 0).val ∧ (i 0).val < (i 0).val / 5000 * 5000 + 5000; omega
      | ⟨1, _⟩ =>
        show win1_2.index ⟨(i 0).val / 5000, ht⟩ (1 : Fin 2) * 128 ≤ (i 1).val
          ∧ (i 1).val < win1_2.index ⟨(i 0).val / 5000, ht⟩ (1 : Fin 2) * 128 + 128
        rw [e1]; omega

end Cert.KernelIdeal.KerRegion

end
-- ==== Proof.KerRun.lean ====
/-
  The kernel program's run with its two results named.

  The program is five stretches of host operations around two matrix-product regions. Its buffers' contents at the
  seven boundaries are a fold from the launch memory; here that fold is read at the few buffers the results depend
  on, one boundary and one buffer at a time:
    after the first stretch   the edges' sources and destinations (given edges, then self loops) and
                              `dis = deg^(-1/2)` as a column;
    after region 0            the product `x · W1`;
    after the middle stretches  the hidden layer (one convolution, then the leaky rectifier), the two heads'
                              weights side by side and their biases end to end;
    after region 1            the product `hidden · [W_mu | W_logvar]`;
    after the last stretch    the second convolution, cut into its two halves of 64 columns.
  Each stretch is read over an ARBITRARY valuation of the buffers, from what it holds at the buffers the stretch
  reads, so that no boundary's fold is ever opened; a region's output array is the whole product by the regions'
  theorems; every other buffer crosses a stretch or a region unchanged because nothing there writes it.
-/
import proofs.«131130_j62904091018060_2_alg».proof.Proof.KerTerm
import proofs.«131130_j62904091018060_2_alg».proof.Proof.KerRegion
import proofs.«131130_j62904091018060_2_alg».proof.Proof.Gen.KernelIdeal.Frame

noncomputable section

namespace Cert.KernelIdeal.KerRun

open Cert.KernelIdeal Idealize.ShloMosaic Idealize.SL.Sem

/-! ## The run, its two results read at the last boundary's contents -/

section Frame
open Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates; at the end each core's two result buffers hold what
    the last boundary's contents `Gen.W7` say, and the eight arguments are as launched: the segments' chain from the
    launch, the last thread state (every unscoped buffer at `Gen.W7`) read against the final memory. -/
theorem run_W7 : θ_run defs (onTc (τ := τ) (main (F := F))) ⟨m, fun _ => 0, ρ⟩ (fun r => ∀ c : Dev nD,
      r.2.mem ((c.tc : Thread nD τ).loc main_v52) = Gen.W7 m ρ c (Proc.devRef .tc main_v52)
      ∧ r.2.mem ((c.tc : Thread nD τ).loc main_v53) = Gen.W7 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v52 (by decide)),
       h c _ (mem_uc main_v53 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Frame

/-! ## Each stretch of host operations, over an arbitrary valuation `W` of the buffers

A stretch's result buffer is the stretch's operations composed, applied to what `W` holds at the buffers the stretch
reads (given as hypotheses, so that a caller passes what it knows about its own boundary); a buffer the stretch does
not write is as in `W`. -/

section Stretches
open Cert.KernelIdeal.Gen

variable (W : Valuation τ sig (Elt Ideal))

/-! ### The first stretch: the edge lists and the degrees' inverse square roots -/

/-- The sources: row 0 of the edge array, then the self loops. -/
theorem ops0_v5 (ei : IVec S2x800000 32) (h1 : W (Proc.devRef .tc main_arg1) = ei) :
    StableHlo.after (hostOps0 (F := Ideal)) W (Proc.devRef .tc main_v5) = KerTerm.src ei := by
  subst h1; after_results; rfl
/-- The destinations: row 1 of the edge array, then the self loops. -/
theorem ops0_v6 (ei : IVec S2x800000 32) (h1 : W (Proc.devRef .tc main_arg1) = ei) :
    StableHlo.after (hostOps0 (F := Ideal)) W (Proc.devRef .tc main_v6) = KerTerm.dst ei := by
  subst h1; after_results; rfl
/-- `deg^(-1/2)` as a column: ones scattered to the destinations, the inverse square root, the column. -/
theorem ops0_v12 (ei : IVec S2x800000 32) (h1 : W (Proc.devRef .tc main_arg1) = ei) :
    StableHlo.after (hostOps0 (F := Ideal)) W (Proc.devRef .tc main_v12) = KerTerm.disC ei := by
  subst h1; after_results; rfl
theorem ops0_arg0 : StableHlo.after (hostOps0 (F := Ideal)) W (Proc.devRef .tc main_arg0) = W (Proc.devRef .tc main_arg0) := by
  after_results_simp
theorem ops0_arg2 : StableHlo.after (hostOps0 (F := Ideal)) W (Proc.devRef .tc main_arg2) = W (Proc.devRef .tc main_arg2) := by
  after_results_simp
theorem ops0_arg3 : StableHlo.after (hostOps0 (F := Ideal)) W (Proc.devRef .tc main_arg3) = W (Proc.devRef .tc main_arg3) := by
  after_results_simp
theorem ops0_arg4 : StableHlo.after (hostOps0 (F := Ideal)) W (Proc.devRef .tc main_arg4) = W (Proc.devRef .tc main_arg4) := by
  after_results_simp
theorem ops0_arg5 : StableHlo.after (hostOps0 (F := Ideal)) W (Proc.devRef .tc main_arg5) = W (Proc.devRef .tc main_arg5) := by
  after_results_simp
theorem ops0_arg6 : StableHlo.after (hostOps0 (F := Ideal)) W (Proc.devRef .tc main_arg6) = W (Proc.devRef .tc main_arg6) := by
  after_results_simp
theorem ops0_arg7 : StableHlo.after (hostOps0 (F := Ideal)) W (Proc.devRef .tc main_arg7) = W (Proc.devRef .tc main_arg7) := by
  after_results_simp

/-! ### The middle stretches: the first convolution, the rectifier, the heads' weights and biases joined -/

/-- The first convolution: scale by `dis`, gather the sources' rows, add them up at the destinations, scale by `dis`,
    add the bias. -/
theorem ops1_v30 (ei : IVec S2x800000 32) (h : FVec Ideal S50000x128 .f32) (b : FVec Ideal S128 .f32)
    (h5 : W (Proc.devRef .tc main_v5) = KerTerm.src ei) (h6 : W (Proc.devRef .tc main_v6) = KerTerm.dst ei)
    (h12 : W (Proc.devRef .tc main_v12) = KerTerm.disC ei) (h13 : W (Proc.devRef .tc main_v13) = h) (h3 : W (Proc.devRef .tc main_arg3) = b) :
    StableHlo.after (hostOps1 (F := Ideal)) W (Proc.devRef .tc main_v30) = KerTerm.conv ei h b := by
  subst h13 h3
  after_results_simp
  rw [h5, h6, h12]
  unfold KerTerm.conv KerTerm.disB KerTerm.col KerTerm.wrap
  with_reducible rfl
/-- The rectifier's slope, set at the end of that stretch. -/
theorem ops1_cst3 : StableHlo.after (hostOps1 (F := Ideal)) W (Proc.devRef .tc main_cst_3) = constant (F := Ideal) S_ .f32 0x3C23D70A#32 := by
  after_results_simp
/-- The leaky rectifier of what the convolution left. -/
theorem ops11_v31 (x : FVec Ideal S50000x128 .f32) (h30 : W (Proc.devRef .tc main_v30) = x)
    (hc : W (Proc.devRef .tc main_cst_3) = constant (F := Ideal) S_ .f32 0x3C23D70A#32) :
    StableHlo.after (hostOps1_1 (F := Ideal)) W (Proc.devRef .tc main_v31) = KerTerm.leaky x := by
  after_results
  rw [h30, hc]
  rfl
/-- The two heads' weights side by side. -/
theorem ops12_v32 (Wmu Wlv : FVec Ideal S128x64 .f32) (h4 : W (Proc.devRef .tc main_arg4) = Wmu) (h6 : W (Proc.devRef .tc main_arg6) = Wlv) :
    StableHlo.after (hostOps1_2 (F := Ideal)) W (Proc.devRef .tc main_v32) = KerTerm.wcat Wmu Wlv := by
  subst h4 h6; after_results; rfl
/-- The two heads' biases end to end. -/
theorem ops12_v33 (bmu blv : FVec Ideal S64 .f32) (h5 : W (Proc.devRef .tc main_arg5) = bmu) (h7 : W (Proc.devRef .tc main_arg7) = blv) :
    StableHlo.after (hostOps1_2 (F := Ideal)) W (Proc.devRef .tc main_v33) = KerTerm.bcat bmu blv := by
  subst h5 h7; after_results; rfl
theorem ops12_v31 : StableHlo.after (hostOps1_2 (F := Ideal)) W (Proc.devRef .tc main_v31) = W (Proc.devRef .tc main_v31) := by
  after_results_simp
theorem mid_v5 :
    StableHlo.after (hostOps1_2 (F := Ideal)) (StableHlo.after hostOps1_1 (StableHlo.after hostOps1 W)) (Proc.devRef .tc main_v5) = W (Proc.devRef .tc main_v5) := by
  after_results_simp
theorem mid_v6 :
    StableHlo.after (hostOps1_2 (F := Ideal)) (StableHlo.after hostOps1_1 (StableHlo.after hostOps1 W)) (Proc.devRef .tc main_v6) = W (Proc.devRef .tc main_v6) := by
  after_results_simp
theorem mid_v12 :
    StableHlo.after (hostOps1_2 (F := Ideal)) (StableHlo.after hostOps1_1 (StableHlo.after hostOps1 W)) (Proc.devRef .tc main_v12) = W (Proc.devRef .tc main_v12) := by
  after_results_simp
theorem mid_arg4 :
    StableHlo.after (hostOps1_1 (F := Ideal)) (StableHlo.after hostOps1 W) (Proc.devRef .tc main_arg4) = W (Proc.devRef .tc main_arg4) := by
  after_results_simp
theorem mid_arg5 :
    StableHlo.after (hostOps1_1 (F := Ideal)) (StableHlo.after hostOps1 W) (Proc.devRef .tc main_arg5) = W (Proc.devRef .tc main_arg5) := by
  after_results_simp
theorem mid_arg6 :
    StableHlo.after (hostOps1_1 (F := Ideal)) (StableHlo.after hostOps1 W) (Proc.devRef .tc main_arg6) = W (Proc.devRef .tc main_arg6) := by
  after_results_simp
theorem mid_arg7 :
    StableHlo.after (hostOps1_1 (F := Ideal)) (StableHlo.after hostOps1 W) (Proc.devRef .tc main_arg7) = W (Proc.devRef .tc main_arg7) := by
  after_results_simp

/-! ### The last stretch: the second convolution (scale, gather, add up, scale, add the bias), cut into its two halves -/

/-- Columns 0 … 63 of the second convolution. -/
theorem ops2_v52 (ei : IVec S2x800000 32) (h : FVec Ideal S50000x128 .f32) (b : FVec Ideal S128 .f32)
    (h5 : W (Proc.devRef .tc main_v5) = KerTerm.src ei) (h6 : W (Proc.devRef .tc main_v6) = KerTerm.dst ei)
    (h12 : W (Proc.devRef .tc main_v12) = KerTerm.disC ei) (h34 : W (Proc.devRef .tc main_v34) = h) (h33 : W (Proc.devRef .tc main_v33) = b) :
    StableHlo.after (hostOps2 (F := Ideal)) W (Proc.devRef .tc main_v52)
      = extractStridedSlice S50000x64 ![0, 0] (KerTerm.conv ei h b) slices_S50000x128_S50000x64_0_0 := by
  subst h34 h33
  after_results_simp
  rw [h5, h6, h12]
  unfold KerTerm.conv KerTerm.disB KerTerm.col KerTerm.wrap
  with_reducible rfl
/-- Columns 64 … 127 of the second convolution. -/
theorem ops2_v53 (ei : IVec S2x800000 32) (h : FVec Ideal S50000x128 .f32) (b : FVec Ideal S128 .f32)
    (h5 : W (Proc.devRef .tc main_v5) = KerTerm.src ei) (h6 : W (Proc.devRef .tc main_v6) = KerTerm.dst ei)
    (h12 : W (Proc.devRef .tc main_v12) = KerTerm.disC ei) (h34 : W (Proc.devRef .tc main_v34) = h) (h33 : W (Proc.devRef .tc main_v33) = b) :
    StableHlo.after (hostOps2 (F := Ideal)) W (Proc.devRef .tc main_v53)
      = extractStridedSlice S50000x64 ![0, 64] (KerTerm.conv ei h b) slices_S50000x128_S50000x64_0_64 := by
  subst h34 h33
  after_results_simp
  rw [h5, h6, h12]
  unfold KerTerm.conv KerTerm.disB KerTerm.col KerTerm.wrap
  with_reducible rfl

end Stretches

/-! ## The boundaries' contents at the buffers the results depend on

`Gen.W1 … Gen.W7` are core `c`'s buffer contents after each segment. Each fact below is about one boundary and one
buffer, from the facts of the boundary before it. -/

section Boundaries

variable (m : (ℓ : Loc nD τ sig) → Buf (Elt Ideal) ℓ) (ρ : Dev nD → PrngReg) (c : Dev nD)

/-! ### After the first stretch -/

theorem W1_v5 : Gen.W1 m ρ c (Proc.devRef .tc main_v5) = KerTerm.src (m ((c.tc : Thread nD τ).loc main_arg1)) := ops0_v5 (Gen.W0 m ρ c) _ rfl
theorem W1_v6 : Gen.W1 m ρ c (Proc.devRef .tc main_v6) = KerTerm.dst (m ((c.tc : Thread nD τ).loc main_arg1)) := ops0_v6 (Gen.W0 m ρ c) _ rfl
theorem W1_v12 : Gen.W1 m ρ c (Proc.devRef .tc main_v12) = KerTerm.disC (m ((c.tc : Thread nD τ).loc main_arg1)) := ops0_v12 (Gen.W0 m ρ c) _ rfl
theorem W1_arg0 : Gen.W1 m ρ c (Proc.devRef .tc main_arg0) = (m ((c.tc : Thread nD τ).loc main_arg0)) := ops0_arg0 (Gen.W0 m ρ c)
theorem W1_arg2 : Gen.W1 m ρ c (Proc.devRef .tc main_arg2) = (m ((c.tc : Thread nD τ).loc main_arg2)) := ops0_arg2 (Gen.W0 m ρ c)
theorem W1_arg3 : Gen.W1 m ρ c (Proc.devRef .tc main_arg3) = (m ((c.tc : Thread nD τ).loc main_arg3)) := ops0_arg3 (Gen.W0 m ρ c)
theorem W1_arg4 : Gen.W1 m ρ c (Proc.devRef .tc main_arg4) = (m ((c.tc : Thread nD τ).loc main_arg4)) := ops0_arg4 (Gen.W0 m ρ c)
theorem W1_arg5 : Gen.W1 m ρ c (Proc.devRef .tc main_arg5) = (m ((c.tc : Thread nD τ).loc main_arg5)) := ops0_arg5 (Gen.W0 m ρ c)
theorem W1_arg6 : Gen.W1 m ρ c (Proc.devRef .tc main_arg6) = (m ((c.tc : Thread nD τ).loc main_arg6)) := ops0_arg6 (Gen.W0 m ρ c)
theorem W1_arg7 : Gen.W1 m ρ c (Proc.devRef .tc main_arg7) = (m ((c.tc : Thread nD τ).loc main_arg7)) := ops0_arg7 (Gen.W0 m ρ c)

/-! ### After region 0: its output array is the product of its two input arrays, the rest as before -/

theorem W2_v13 : Gen.W2 m ρ c (Proc.devRef .tc main_v13) = KerTerm.mm0 (m ((c.tc : Thread nD τ).loc main_arg0)) (m ((c.tc : Thread nD τ).loc main_arg2)) :=
  (Gen.W2_arr m ρ c 2).trans ((KerRegion.region0 (Gen.V1 m ρ) c).trans
    (congrArg₂ KerTerm.mm0 (W1_arg0 m ρ c) (W1_arg2 m ρ c)))
theorem W2_v5 : Gen.W2 m ρ c (Proc.devRef .tc main_v5) = KerTerm.src (m ((c.tc : Thread nD τ).loc main_arg1)) := (Gen.W2_of_ne m ρ c main_v5 (by decide)).trans (W1_v5 m ρ c)
theorem W2_v6 : Gen.W2 m ρ c (Proc.devRef .tc main_v6) = KerTerm.dst (m ((c.tc : Thread nD τ).loc main_arg1)) := (Gen.W2_of_ne m ρ c main_v6 (by decide)).trans (W1_v6 m ρ c)
theorem W2_v12 : Gen.W2 m ρ c (Proc.devRef .tc main_v12) = KerTerm.disC (m ((c.tc : Thread nD τ).loc main_arg1)) := (Gen.W2_of_ne m ρ c main_v12 (by decide)).trans (W1_v12 m ρ c)
theorem W2_arg3 : Gen.W2 m ρ c (Proc.devRef .tc main_arg3) = (m ((c.tc : Thread nD τ).loc main_arg3)) := (Gen.W2_of_ne m ρ c main_arg3 (by decide)).trans (W1_arg3 m ρ c)
theorem W2_arg4 : Gen.W2 m ρ c (Proc.devRef .tc main_arg4) = (m ((c.tc : Thread nD τ).loc main_arg4)) := (Gen.W2_of_ne m ρ c main_arg4 (by decide)).trans (W1_arg4 m ρ c)
theorem W2_arg5 : Gen.W2 m ρ c (Proc.devRef .tc main_arg5) = (m ((c.tc : Thread nD τ).loc main_arg5)) := (Gen.W2_of_ne m ρ c main_arg5 (by decide)).trans (W1_arg5 m ρ c)
theorem W2_arg6 : Gen.W2 m ρ c (Proc.devRef .tc main_arg6) = (m ((c.tc : Thread nD τ).loc main_arg6)) := (Gen.W2_of_ne m ρ c main_arg6 (by decide)).trans (W1_arg6 m ρ c)
theorem W2_arg7 : Gen.W2 m ρ c (Proc.devRef .tc main_arg7) = (m ((c.tc : Thread nD τ).loc main_arg7)) := (Gen.W2_of_ne m ρ c main_arg7 (by decide)).trans (W1_arg7 m ρ c)

/-! ### After the middle stretches (region 1's entry) -/

/-- The hidden layer. -/
theorem W5_v31 : Gen.W5 m ρ c (Proc.devRef .tc main_v31) = KerTerm.hid (m ((c.tc : Thread nD τ).loc main_arg0)) (m ((c.tc : Thread nD τ).loc main_arg1)) (m ((c.tc : Thread nD τ).loc main_arg2)) (m ((c.tc : Thread nD τ).loc main_arg3)) :=
  (ops12_v31 (Gen.W4 m ρ c)).trans (ops11_v31 (Gen.W3 m ρ c) _
    (ops1_v30 (Gen.W2 m ρ c) _ _ _ (W2_v5 m ρ c) (W2_v6 m ρ c) (W2_v12 m ρ c) (W2_v13 m ρ c) (W2_arg3 m ρ c))
    (ops1_cst3 (Gen.W2 m ρ c)))
theorem W5_v32 : Gen.W5 m ρ c (Proc.devRef .tc main_v32) = KerTerm.wcat (m ((c.tc : Thread nD τ).loc main_arg4)) (m ((c.tc : Thread nD τ).loc main_arg6)) :=
  ops12_v32 (Gen.W4 m ρ c) _ _ ((mid_arg4 (Gen.W2 m ρ c)).trans (W2_arg4 m ρ c)) ((mid_arg6 (Gen.W2 m ρ c)).trans (W2_arg6 m ρ c))
theorem W5_v33 : Gen.W5 m ρ c (Proc.devRef .tc main_v33) = KerTerm.bcat (m ((c.tc : Thread nD τ).loc main_arg5)) (m ((c.tc : Thread nD τ).loc main_arg7)) :=
  ops12_v33 (Gen.W4 m ρ c) _ _ ((mid_arg5 (Gen.W2 m ρ c)).trans (W2_arg5 m ρ c)) ((mid_arg7 (Gen.W2 m ρ c)).trans (W2_arg7 m ρ c))
theorem W5_v5 : Gen.W5 m ρ c (Proc.devRef .tc main_v5) = KerTerm.src (m ((c.tc : Thread nD τ).loc main_arg1)) := (mid_v5 (Gen.W2 m ρ c)).trans (W2_v5 m ρ c)
theorem W5_v6 : Gen.W5 m ρ c (Proc.devRef .tc main_v6) = KerTerm.dst (m ((c.tc : Thread nD τ).loc main_arg1)) := (mid_v6 (Gen.W2 m ρ c)).trans (W2_v6 m ρ c)
theorem W5_v12 : Gen.W5 m ρ c (Proc.devRef .tc main_v12) = KerTerm.disC (m ((c.tc : Thread nD τ).loc main_arg1)) := (mid_v12 (Gen.W2 m ρ c)).trans (W2_v12 m ρ c)

/-! ### After region 1 -/

theorem W6_v34 : Gen.W6 m ρ c (Proc.devRef .tc main_v34)
    = KerTerm.mm1 (KerTerm.hid (m ((c.tc : Thread nD τ).loc main_arg0)) (m ((c.tc : Thread nD τ).loc main_arg1)) (m ((c.tc : Thread nD τ).loc main_arg2)) (m ((c.tc : Thread nD τ).loc main_arg3))) (KerTerm.wcat (m ((c.tc : Thread nD τ).loc main_arg4)) (m ((c.tc : Thread nD τ).loc main_arg6))) :=
  (Gen.W6_arr m ρ c 2).trans ((KerRegion.region1 (Gen.V5 m ρ) c).trans
    (congrArg₂ KerTerm.mm1 (W5_v31 m ρ c) (W5_v32 m ρ c)))
theorem W6_v33 : Gen.W6 m ρ c (Proc.devRef .tc main_v33) = KerTerm.bcat (m ((c.tc : Thread nD τ).loc main_arg5)) (m ((c.tc : Thread nD τ).loc main_arg7)) := (Gen.W6_of_ne m ρ c main_v33 (by decide)).trans (W5_v33 m ρ c)
theorem W6_v5 : Gen.W6 m ρ c (Proc.devRef .tc main_v5) = KerTerm.src (m ((c.tc : Thread nD τ).loc main_arg1)) := (Gen.W6_of_ne m ρ c main_v5 (by decide)).trans (W5_v5 m ρ c)
theorem W6_v6 : Gen.W6 m ρ c (Proc.devRef .tc main_v6) = KerTerm.dst (m ((c.tc : Thread nD τ).loc main_arg1)) := (Gen.W6_of_ne m ρ c main_v6 (by decide)).trans (W5_v6 m ρ c)
theorem W6_v12 : Gen.W6 m ρ c (Proc.devRef .tc main_v12) = KerTerm.disC (m ((c.tc : Thread nD τ).loc main_arg1)) := (Gen.W6_of_ne m ρ c main_v12 (by decide)).trans (W5_v12 m ρ c)

/-! ### After the last stretch: the two results -/

theorem W7_v52 : Gen.W7 m ρ c (Proc.devRef .tc main_v52) = KerTerm.mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  ops2_v52 (Gen.W6 m ρ c) _ _ _ (W6_v5 m ρ c) (W6_v6 m ρ c) (W6_v12 m ρ c) (W6_v34 m ρ c) (W6_v33 m ρ c)
theorem W7_v53 : Gen.W7 m ρ c (Proc.devRef .tc main_v53) = KerTerm.lv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  ops2_v53 (Gen.W6 m ρ c) _ _ _ (W6_v5 m ρ c) (W6_v6 m ρ c) (W6_v12 m ρ c) (W6_v34 m ρ c) (W6_v33 m ρ c)

end Boundaries

/-! ## The run -/

/-- Every weakly fair execution of the kernel program terminates with its two results at `KerTerm.mu` / `KerTerm.lv` of the
    arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52) = KerTerm.mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v53) = KerTerm.lv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono
    (fun r h c => ⟨(h c).1.trans (W7_v52 m ρ c), (h c).2.1.trans (W7_v53 m ρ c), (h c).2.2⟩) (run_W7 m ρ)

end Cert.KernelIdeal.KerRun

end
-- ==== Proof.RefTerm.lean ====
/-
  The reference program's result, as ONE pure term of its eight argument arrays, cut into named stages.

  A graph convolution over the edge list `(src, dst)` (the 800000 given edges followed by one self loop per node):
  `deg n` counts the edges whose destination is `n`, `dis = deg^(-1/2)`, every edge carries the weight
  `dis[src] · dis[dst]`, and a layer maps node features `h` to
  `out[n, f] = Σ_{e : dst e = n} h[src e, f] · (dis[src e] · dis[dst e]) + b[f]`.
  The encoder is `leaky_relu (conv (x · W1) b1)` followed by two such layers, one for the mean and one for the
  log-variance. Each stage below is the host operations' own composition, in the program's order.
-/
import proofs.«131130_j62904091018060_2_alg».proof.Proof.Gen.ReferenceIdeal
import Idealize.ShloMosaic.PureOps.Ideal

noncomputable section

namespace Cert.ReferenceIdeal.RefTerm

open Cert.ReferenceIdeal Idealize.ShloMosaic
open Cert.ReferenceIdeal.Facts₀

/-- The self loops' node numbers `0 … 49999`. -/
def loops : IVec S50000 32 := iotaInDim S50000 32 0
/-- Row `r` of the edge array as a flat list of 800000 node numbers. -/
def row0 (ei : IVec S2x800000 32) : IVec S800000 32 :=
  shapeCast S800000 (extractStridedSlice S1x800000 ![0, 0] ei slices_S2x800000_S1x800000_0_0) shapeCasts_S1x800000_S800000
def row1 (ei : IVec S2x800000 32) : IVec S800000 32 :=
  shapeCast S800000 (extractStridedSlice S1x800000 ![1, 0] ei slices_S2x800000_S1x800000_1_0) shapeCasts_S1x800000_S800000
/-- Sources and destinations of all 850000 edges: the given ones, then the self loops. -/
def src (ei : IVec S2x800000 32) : IVec S850000 32 :=
  concatenate S850000 0 [⟨S800000, row0 ei⟩, ⟨S50000, loops⟩] concatenates_S800000_S50000_S850000_d0
def dst (ei : IVec S2x800000 32) : IVec S850000 32 :=
  concatenate S850000 0 [⟨S800000, row1 ei⟩, ⟨S50000, loops⟩] concatenates_S800000_S50000_S850000_d0
/-- A list of node numbers as a one-column array of start indices. -/
def col (v : IVec S850000 32) : IVec S850000x1 32 := broadcastInDim S850000x1 ![0] bcast_S850000_S850000x1_0 v
/-- A negative node number counted from the end (`v + 50000`), the others kept. -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v
/-- The number of edges arriving at each node. -/
def deg (ei : IVec S2x800000 32) : FVec Ideal S50000 .f32 :=
  Host.scatterAdd scatter_S50000_S850000x1_S850000_n_0_0_1
    (broadcastInDim S50000 ![] bcast_S_S50000 (constant S_ .f32 0x00000000#32)) (col (dst ei))
    (broadcastInDim S850000 ![] bcast_S_S850000 (constant S_ .f32 0x3F800000#32))
def dis (ei : IVec S2x800000 32) : FVec Ideal S50000 .f32 := Host.rsqrt (deg ei)
/-- The weight of each edge: `dis` at its source times `dis` at its destination. -/
def enorm (ei : IVec S2x800000 32) : FVec Ideal S850000 .f32 :=
  mulf (Host.gather gather_S50000_S850000x1_S850000_n_0_n_n_0_1_1 (dis ei) (col (wrap (src ei))))
    (Host.gather gather_S50000_S850000x1_S850000_n_0_n_n_0_1_1 (dis ei) (col (wrap (dst ei))))
/-- One layer on 128 features: gather the sources' rows, weigh each edge, add up at the destinations, add the bias. -/
def conv128 (ei : IVec S2x800000 32) (h : FVec Ideal S50000x128 .f32) (b : FVec Ideal S128 .f32) : FVec Ideal S50000x128 .f32 :=
  addf
    (Host.scatterAdd scatter_S50000x128_S850000x1_S850000x128_1_0_0_1
      (broadcastInDim S50000x128 ![] bcast_S_S50000x128 (constant S_ .f32 0x00000000#32)) (col (dst ei))
      (mulf (Host.gather gather_S50000x128_S850000x1_S850000x128_1_0_n_n_0_1_1128 h (col (wrap (src ei))))
        (broadcastInDim S850000x128 ![0, 1] bcast_S850000x1_S850000x128_0_1
          (broadcastInDim S850000x1 ![0] bcast_S850000_S850000x1_0 (enorm ei)))))
    (broadcastInDim S50000x128 ![0, 1] bcast_S1x128_S50000x128_0_1 (broadcastInDim S1x128 ![1] bcast_S128_S1x128_1 b))
/-- The same layer on 64 features. -/
def conv64 (ei : IVec S2x800000 32) (h : FVec Ideal S50000x64 .f32) (b : FVec Ideal S64 .f32) : FVec Ideal S50000x64 .f32 :=
  addf
    (Host.scatterAdd scatter_S50000x64_S850000x1_S850000x64_1_0_0_1
      (broadcastInDim S50000x64 ![] bcast_S_S50000x64 (constant S_ .f32 0x00000000#32)) (col (dst ei))
      (mulf (Host.gather gather_S50000x64_S850000x1_S850000x64_1_0_n_n_0_1_164 h (col (wrap (src ei))))
        (broadcastInDim S850000x64 ![0, 1] bcast_S850000x1_S850000x64_0_1
          (broadcastInDim S850000x1 ![0] bcast_S850000_S850000x1_0 (enorm ei)))))
    (broadcastInDim S50000x64 ![0, 1] bcast_S1x64_S50000x64_0_1 (broadcastInDim S1x64 ![1] bcast_S64_S1x64_1 b))
/-- `x` where `x ≥ 0`, else `slope · x`. -/
def leaky (x : FVec Ideal S50000x128 .f32) : FVec Ideal S50000x128 .f32 :=
  select (cmpf .oge x (broadcastInDim S50000x128 ![] bcast_S_S50000x128 (constant S_ .f32 0x00000000#32))) x
    (mulf (broadcastInDim S50000x128 ![] bcast_S_S50000x128 (id (constant S_ .f32 0x3C23D70A#32))) x)
/-- The hidden layer. -/
def hid (x : FVec Ideal S50000x256 .f32) (ei : IVec S2x800000 32) (W1 : FVec Ideal S256x128 .f32) (b1 : FVec Ideal S128 .f32) :
    FVec Ideal S50000x128 .f32 :=
  leaky (conv128 ei (Host.dotGeneral dot_S50000x256_S256x128_S50000x128_1_0_0_1_n_n none x W1) b1)
/-- An output head (the mean's with `W_mu, b_mu`, the log-variance's with `W_logvar, b_logvar`). -/
def head (x : FVec Ideal S50000x256 .f32) (ei : IVec S2x800000 32) (W1 : FVec Ideal S256x128 .f32) (b1 : FVec Ideal S128 .f32)
    (W : FVec Ideal S128x64 .f32) (b : FVec Ideal S64 .f32) : FVec Ideal S50000x64 .f32 :=
  conv64 ei (Host.dotGeneral dot_S50000x128_S128x64_S50000x64_1_0_0_1_n_n none (hid x ei W1 b1) W) b

end Cert.ReferenceIdeal.RefTerm

end
-- ==== Proof.RefRun.lean ====
/-
  The reference program's run. The program is a straight line of 139 array operations (the 132 of its main function
  and, at the one call it makes, the 7 of the leaky-ReLU function with the select it calls in turn, over that call's
  own buffers). Run in order from the launch contents, each operation rewrites its result buffer to its function of
  its operands' contents and leaves every other buffer; so a buffer's final contents are the composition of the
  operations that feed it. For the two result buffers that composition is the graph-convolution term
  `RefTerm.head` of the arguments (with the mean's, resp. the log-variance's, weights and bias), and no operation
  writes an argument.
-/
import proofs.«131130_j62904091018060_2_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The program's 139 operations, in order; the call's seven stand where the call does, over the call's buffers. -/
abbrev ops : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.unary main_v10 main_v11 (Host.rsqrt : (⟨S50000, .f32⟩ : BufTy).Contents (Elt F) → (⟨S50000, .f32⟩ : BufTy).Contents (Elt F)),
    StableHlo.binary main_arg0 main_arg2 main_v12 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c (constantI S_ 32 0#32),
    StableHlo.unary main_c main_v13 (broadcastInDim S850000 ![] bcast_S_S850000 : (⟨S_, .i32⟩ : BufTy).Contents (Elt F) → (⟨S850000, .i32⟩ : BufTy).Contents (Elt F)),
    StableHlo.binary main_v3 main_v13 main_v14 (cmpi .slt : (⟨S850000, .i32⟩ : BufTy).Contents (Elt F) → (⟨S850000, .i32⟩ : BufTy).Contents (Elt F) → (⟨S850000, .i1⟩ : BufTy).Contents (Elt F)),
    StableHlo.nullary main_c_1 (constantI S_ 32 50000#32),
    StableHlo.unary main_c_1 main_v15 (broadcastInDim S850000 ![] bcast_S_S850000 : (⟨S_, .i32⟩ : BufTy).Contents (Elt F) → (⟨S850000, .i32⟩ : BufTy).Contents (Elt F)),
    StableHlo.binary main_v3 main_v15 main_v16 (addi : (⟨S850000, .i32⟩ : BufTy).Contents (Elt F) → (⟨S850000, .i32⟩ : BufTy).Contents (Elt F) → (⟨S850000, .i32⟩ : BufTy).Contents (Elt F)),
    StableHlo.ternary main_v14 main_v16 main_v3 main_v17 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v17 main_v18 (broadcastInDim S850000x1 ![0] bcast_S850000_S850000x1_0 : (⟨S850000, .i32⟩ : BufTy).Contents (Elt F) → (⟨S850000x1, .i32⟩ : BufTy).Contents (Elt F)),
    StableHlo.binary main_v11 main_v18 main_v19 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_2 (constantI S_ 32 0#32),
    StableHlo.unary main_c_2 main_v20 (broadcastInDim S850000 ![] bcast_S_S850000 : (⟨S_, .i32⟩ : BufTy).Contents (Elt F) → (⟨S850000, .i32⟩ : BufTy).Contents (Elt F)),
    StableHlo.binary main_v6 main_v20 main_v21 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v22 (broadcastInDim S850000 ![] bcast_S_S850000 : (⟨S_, .i32⟩ : BufTy).Contents (Elt F) → (⟨S850000, .i32⟩ : BufTy).Contents (Elt F)),
    StableHlo.binary main_v6 main_v22 main_v23 (addi : (⟨S850000, .i32⟩ : BufTy).Contents (Elt F) → (⟨S850000, .i32⟩ : BufTy).Contents (Elt F) → (⟨S850000, .i32⟩ : BufTy).Contents (Elt F)),
    StableHlo.ternary main_v21 main_v23 main_v6 main_v24 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v24 main_v25 (broadcastInDim S850000x1 ![0] bcast_S850000_S850000x1_0 : (⟨S850000, .i32⟩ : BufTy).Contents (Elt F) → (⟨S850000x1, .i32⟩ : BufTy).Contents (Elt F)),
    StableHlo.binary main_v11 main_v25 main_v26 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v19 main_v26 main_v27 (mulf : (⟨S850000, .f32⟩ : BufTy).Contents (Elt F) → (⟨S850000, .f32⟩ : BufTy).Contents (Elt F) → (⟨S850000, .f32⟩ : BufTy).Contents (Elt F)),
    StableHlo.unary main_v27 main_v28 (broadcastInDim S850000x1 ![0] bcast_S850000_S850000x1_0 : (⟨S850000, .f32⟩ : BufTy).Contents (Elt F) → (⟨S850000x1, .f32⟩ : BufTy).Contents (Elt F)),
    StableHlo.nullary main_c_4 (constantI S_ 32 0#32),
    StableHlo.unary main_c_4 main_v29 (broadcastInDim S850000 ![] bcast_S_S850000 : (⟨S_, .i32⟩ : BufTy).Contents (Elt F) → (⟨S850000, .i32⟩ : BufTy).Contents (Elt F)),
    StableHlo.binary main_v3 main_v29 main_v30 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v31 (broadcastInDim S850000 ![] bcast_S_S850000 : (⟨S_, .i32⟩ : BufTy).Contents (Elt F) → (⟨S850000, .i32⟩ : BufTy).Contents (Elt F)),
    StableHlo.binary main_v3 main_v31 main_v32 (addi : (⟨S850000, .i32⟩ : BufTy).Contents (Elt F) → (⟨S850000, .i32⟩ : BufTy).Contents (Elt F) → (⟨S850000, .i32⟩ : BufTy).Contents (Elt F)),
    StableHlo.ternary main_v30 main_v32 main_v3 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v33 main_v34 (broadcastInDim S850000x1 ![0] bcast_S850000_S850000x1_0 : (⟨S850000, .i32⟩ : BufTy).Contents (Elt F) → (⟨S850000x1, .i32⟩ : BufTy).Contents (Elt F)),
    StableHlo.binary main_v12 main_v34 main_v35 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v28 main_v36 (broadcastInDim S850000x128 ![0, 1] bcast_S850000x1_S850000x128_0_1 : (⟨S850000x1, .f32⟩ : BufTy).Contents (Elt F) → (⟨S850000x128, .f32⟩ : BufTy).Contents (Elt F)),
    StableHlo.binary main_v35 main_v36 main_v37 (mulf : (⟨S850000x128, .f32⟩ : BufTy).Contents (Elt F) → (⟨S850000x128, .f32⟩ : BufTy).Contents (Elt F) → (⟨S850000x128, .f32⟩ : BufTy).Contents (Elt F)),
    StableHlo.nullary main_cst_6 (constant S_ .f32 0x00000000#32),
    StableHlo.unary main_cst_6 main_v38 (broadcastInDim S50000x128 ![] bcast_S_S50000x128 : (⟨S_, .f32⟩ : BufTy).Contents (Elt F) → (⟨S50000x128, .f32⟩ : BufTy).Contents (Elt F)),
    StableHlo.unary main_v6 main_v39 (broadcastInDim S850000x1 ![0] bcast_S850000_S850000x1_0 : (⟨S850000, .i32⟩ : BufTy).Contents (Elt F) → (⟨S850000x1, .i32⟩ : BufTy).Contents (Elt F)),
    StableHlo.ternary main_v38 main_v39 main_v37 main_v40 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3C23D70A#32),
    StableHlo.TRef.nullary main_call0.cst (constant S_ .f32 0x00000000#32),
    StableHlo.TRef.unary main_call0.cst main_call0.v0 (broadcastInDim S50000x128 ![] bcast_S_S50000x128),
    StableHlo.TRef.binary (.of main_v43 : StableHlo.TRef sig ⟨S50000x128, .f32⟩) main_call0.v0 main_call0.v1 (cmpf .oge),
    StableHlo.TRef.unary (.of main_cst_7 : StableHlo.TRef sig ⟨S_, .f32⟩) main_call0.v2 id,
    StableHlo.TRef.unary main_call0.v2 main_call0.v3 (broadcastInDim S50000x128 ![] bcast_S_S50000x128),
    StableHlo.TRef.binary main_call0.v3 (.of main_v43 : StableHlo.TRef sig ⟨S50000x128, .f32⟩) main_call0.v4 mulf,
    StableHlo.TRef.ternary main_call0.v1 (.of main_v43 : StableHlo.TRef sig ⟨S50000x128, .f32⟩) main_call0.v4 main_call0.call0.v0 select,
    StableHlo.binary main_v44 main_arg4 main_v45 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_8 (constantI S_ 32 0#32),
    StableHlo.unary main_c_8 main_v46 (broadcastInDim S850000 ![] bcast_S_S850000 : (⟨S_, .i32⟩ : BufTy).Contents (Elt F) → (⟨S850000, .i32⟩ : BufTy).Contents (Elt F)),
    StableHlo.binary main_v3 main_v46 main_v47 (cmpi .slt : (⟨S850000, .i32⟩ : BufTy).Contents (Elt F) → (⟨S850000, .i32⟩ : BufTy).Contents (Elt F) → (⟨S850000, .i1⟩ : BufTy).Contents (Elt F)),
    StableHlo.nullary main_c_9 (constantI S_ 32 50000#32),
    StableHlo.unary main_c_9 main_v48 (broadcastInDim S850000 ![] bcast_S_S850000 : (⟨S_, .i32⟩ : BufTy).Contents (Elt F) → (⟨S850000, .i32⟩ : BufTy).Contents (Elt F)),
    StableHlo.binary main_v3 main_v48 main_v49 (addi : (⟨S850000, .i32⟩ : BufTy).Contents (Elt F) → (⟨S850000, .i32⟩ : BufTy).Contents (Elt F) → (⟨S850000, .i32⟩ : BufTy).Contents (Elt F)),
    StableHlo.ternary main_v47 main_v49 main_v3 main_v50 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v50 main_v51 (broadcastInDim S850000x1 ![0] bcast_S850000_S850000x1_0 : (⟨S850000, .i32⟩ : BufTy).Contents (Elt F) → (⟨S850000x1, .i32⟩ : BufTy).Contents (Elt F)),
    StableHlo.binary main_v11 main_v51 main_v52 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_10 (constantI S_ 32 0#32),
    StableHlo.unary main_c_10 main_v53 (broadcastInDim S850000 ![] bcast_S_S850000 : (⟨S_, .i32⟩ : BufTy).Contents (Elt F) → (⟨S850000, .i32⟩ : BufTy).Contents (Elt F)),
    StableHlo.binary main_v6 main_v53 main_v54 (cmpi .slt : (⟨S850000, .i32⟩ : BufTy).Contents (Elt F) → (⟨S850000, .i32⟩ : BufTy).Contents (Elt F) → (⟨S850000, .i1⟩ : BufTy).Contents (Elt F)),
    StableHlo.nullary main_c_11 (constantI S_ 32 50000#32),
    StableHlo.unary main_c_11 main_v55 (broadcastInDim S850000 ![] bcast_S_S850000 : (⟨S_, .i32⟩ : BufTy).Contents (Elt F) → (⟨S850000, .i32⟩ : BufTy).Contents (Elt F)),
    StableHlo.binary main_v6 main_v55 main_v56 (addi : (⟨S850000, .i32⟩ : BufTy).Contents (Elt F) → (⟨S850000, .i32⟩ : BufTy).Contents (Elt F) → (⟨S850000, .i32⟩ : BufTy).Contents (Elt F)),
    StableHlo.ternary main_v54 main_v56 main_v6 main_v57 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v57 main_v58 (broadcastInDim S850000x1 ![0] bcast_S850000_S850000x1_0 : (⟨S850000, .i32⟩ : BufTy).Contents (Elt F) → (⟨S850000x1, .i32⟩ : BufTy).Contents (Elt F)),
    StableHlo.binary main_v11 main_v58 main_v59 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v52 main_v59 main_v60 (mulf : (⟨S850000, .f32⟩ : BufTy).Contents (Elt F) → (⟨S850000, .f32⟩ : BufTy).Contents (Elt F) → (⟨S850000, .f32⟩ : BufTy).Contents (Elt F)),
    StableHlo.unary main_v60 main_v61 (broadcastInDim S850000x1 ![0] bcast_S850000_S850000x1_0 : (⟨S850000, .f32⟩ : BufTy).Contents (Elt F) → (⟨S850000x1, .f32⟩ : BufTy).Contents (Elt F)),
    StableHlo.nullary main_c_12 (constantI S_ 32 0#32),
    StableHlo.unary main_c_12 main_v62 (broadcastInDim S850000 ![] bcast_S_S850000 : (⟨S_, .i32⟩ : BufTy).Contents (Elt F) → (⟨S850000, .i32⟩ : BufTy).Contents (Elt F)),
    StableHlo.binary main_v3 main_v62 main_v63 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v64 (broadcastInDim S850000 ![] bcast_S_S850000 : (⟨S_, .i32⟩ : BufTy).Contents (Elt F) → (⟨S850000, .i32⟩ : BufTy).Contents (Elt F)),
    StableHlo.binary main_v3 main_v64 main_v65 (addi : (⟨S850000, .i32⟩ : BufTy).Contents (Elt F) → (⟨S850000, .i32⟩ : BufTy).Contents (Elt F) → (⟨S850000, .i32⟩ : BufTy).Contents (Elt F)),
    StableHlo.ternary main_v63 main_v65 main_v3 main_v66 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v66 main_v67 (broadcastInDim S850000x1 ![0] bcast_S850000_S850000x1_0 : (⟨S850000, .i32⟩ : BufTy).Contents (Elt F) → (⟨S850000x1, .i32⟩ : BufTy).Contents (Elt F)),
    StableHlo.binary main_v45 main_v67 main_v68 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v61 main_v69 (broadcastInDim S850000x64 ![0, 1] bcast_S850000x1_S850000x64_0_1 : (⟨S850000x1, .f32⟩ : BufTy).Contents (Elt F) → (⟨S850000x64, .f32⟩ : BufTy).Contents (Elt F)),
    StableHlo.binary main_v68 main_v69 main_v70 (mulf : (⟨S850000x64, .f32⟩ : BufTy).Contents (Elt F) → (⟨S850000x64, .f32⟩ : BufTy).Contents (Elt F) → (⟨S850000x64, .f32⟩ : BufTy).Contents (Elt F)),
    StableHlo.nullary main_cst_14 (constant S_ .f32 0x00000000#32),
    StableHlo.unary main_cst_14 main_v71 (broadcastInDim S50000x64 ![] bcast_S_S50000x64 : (⟨S_, .f32⟩ : BufTy).Contents (Elt F) → (⟨S50000x64, .f32⟩ : BufTy).Contents (Elt F)),
    StableHlo.unary main_v6 main_v72 (broadcastInDim S850000x1 ![0] bcast_S850000_S850000x1_0 : (⟨S850000, .i32⟩ : BufTy).Contents (Elt F) → (⟨S850000x1, .i32⟩ : BufTy).Contents (Elt F)),
    StableHlo.ternary main_v71 main_v72 main_v70 main_v73 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg5 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S50000x64 ![0, 1] bcast_S1x64_S50000x64_0_1 : (⟨S1x64, .f32⟩ : BufTy).Contents (Elt F) → (⟨S50000x64, .f32⟩ : BufTy).Contents (Elt F)),
    StableHlo.binary main_v73 main_v75 main_v76 (addf : (⟨S50000x64, .f32⟩ : BufTy).Contents (Elt F) → (⟨S50000x64, .f32⟩ : BufTy).Contents (Elt F) → (⟨S50000x64, .f32⟩ : BufTy).Contents (Elt F)),
    StableHlo.binary main_v44 main_arg6 main_v77 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_15 (constantI S_ 32 0#32),
    StableHlo.unary main_c_15 main_v78 (broadcastInDim S850000 ![] bcast_S_S850000 : (⟨S_, .i32⟩ : BufTy).Contents (Elt F) → (⟨S850000, .i32⟩ : BufTy).Contents (Elt F)),
    StableHlo.binary main_v3 main_v78 main_v79 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v80 (broadcastInDim S850000 ![] bcast_S_S850000 : (⟨S_, .i32⟩ : BufTy).Contents (Elt F) → (⟨S850000, .i32⟩ : BufTy).Contents (Elt F)),
    StableHlo.binary main_v3 main_v80 main_v81 (addi : (⟨S850000, .i32⟩ : BufTy).Contents (Elt F) → (⟨S850000, .i32⟩ : BufTy).Contents (Elt F) → (⟨S850000, .i32⟩ : BufTy).Contents (Elt F)),
    StableHlo.ternary main_v79 main_v81 main_v3 main_v82 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v82 main_v83 (broadcastInDim S850000x1 ![0] bcast_S850000_S850000x1_0 : (⟨S850000, .i32⟩ : BufTy).Contents (Elt F) → (⟨S850000x1, .i32⟩ : BufTy).Contents (Elt F)),
    StableHlo.binary main_v11 main_v83 main_v84 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_17 (constantI S_ 32 0#32),
    StableHlo.unary main_c_17 main_v85 (broadcastInDim S850000 ![] bcast_S_S850000 : (⟨S_, .i32⟩ : BufTy).Contents (Elt F) → (⟨S850000, .i32⟩ : BufTy).Contents (Elt F)),
    StableHlo.binary main_v6 main_v85 main_v86 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v87 (broadcastInDim S850000 ![] bcast_S_S850000 : (⟨S_, .i32⟩ : BufTy).Contents (Elt F) → (⟨S850000, .i32⟩ : BufTy).Contents (Elt F)),
    StableHlo.binary main_v6 main_v87 main_v88 (addi : (⟨S850000, .i32⟩ : BufTy).Contents (Elt F) → (⟨S850000, .i32⟩ : BufTy).Contents (Elt F) → (⟨S850000, .i32⟩ : BufTy).Contents (Elt F)),
    StableHlo.ternary main_v86 main_v88 main_v6 main_v89 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v89 main_v90 (broadcastInDim S850000x1 ![0] bcast_S850000_S850000x1_0 : (⟨S850000, .i32⟩ : BufTy).Contents (Elt F) → (⟨S850000x1, .i32⟩ : BufTy).Contents (Elt F)),
    StableHlo.binary main_v11 main_v90 main_v91 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v84 main_v91 main_v92 (mulf : (⟨S850000, .f32⟩ : BufTy).Contents (Elt F) → (⟨S850000, .f32⟩ : BufTy).Contents (Elt F) → (⟨S850000, .f32⟩ : BufTy).Contents (Elt F)),
    StableHlo.unary main_v92 main_v93 (broadcastInDim S850000x1 ![0] bcast_S850000_S850000x1_0 : (⟨S850000, .f32⟩ : BufTy).Contents (Elt F) → (⟨S850000x1, .f32⟩ : BufTy).Contents (Elt F)),
    StableHlo.nullary main_c_19 (constantI S_ 32 0#32),
    StableHlo.unary main_c_19 main_v94 (broadcastInDim S850000 ![] bcast_S_S850000 : (⟨S_, .i32⟩ : BufTy).Contents (Elt F) → (⟨S850000, .i32⟩ : BufTy).Contents (Elt F)),
    StableHlo.binary main_v3 main_v94 main_v95 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v96 (broadcastInDim S850000 ![] bcast_S_S850000 : (⟨S_, .i32⟩ : BufTy).Contents (Elt F) → (⟨S850000, .i32⟩ : BufTy).Contents (Elt F)),
    StableHlo.binary main_v3 main_v96 main_v97 (addi : (⟨S850000, .i32⟩ : BufTy).Contents (Elt F) → (⟨S850000, .i32⟩ : BufTy).Contents (Elt F) → (⟨S850000, .i32⟩ : BufTy).Contents (Elt F)),
    StableHlo.ternary main_v95 main_v97 main_v3 main_v98 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v98 main_v99 (broadcastInDim S850000x1 ![0] bcast_S850000_S850000x1_0 : (⟨S850000, .i32⟩ : BufTy).Contents (Elt F) → (⟨S850000x1, .i32⟩ : BufTy).Contents (Elt F)),
    StableHlo.binary main_v77 main_v99 main_v100 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v93 main_v101 (broadcastInDim S850000x64 ![0, 1] bcast_S850000x1_S850000x64_0_1 : (⟨S850000x1, .f32⟩ : BufTy).Contents (Elt F) → (⟨S850000x64, .f32⟩ : BufTy).Contents (Elt F)),
    StableHlo.binary main_v100 main_v101 main_v102 (mulf : (⟨S850000x64, .f32⟩ : BufTy).Contents (Elt F) → (⟨S850000x64, .f32⟩ : BufTy).Contents (Elt F) → (⟨S850000x64, .f32⟩ : BufTy).Contents (Elt F)),
    StableHlo.nullary main_cst_21 (constant S_ .f32 0x00000000#32),
    StableHlo.unary main_cst_21 main_v103 (broadcastInDim S50000x64 ![] bcast_S_S50000x64 : (⟨S_, .f32⟩ : BufTy).Contents (Elt F) → (⟨S50000x64, .f32⟩ : BufTy).Contents (Elt F)),
    StableHlo.unary main_v6 main_v104 (broadcastInDim S850000x1 ![0] bcast_S850000_S850000x1_0 : (⟨S850000, .i32⟩ : BufTy).Contents (Elt F) → (⟨S850000x1, .i32⟩ : BufTy).Contents (Elt F)),
    StableHlo.ternary main_v103 main_v104 main_v102 main_v105 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg7 main_v106 (broadcastInDim S1x64 ![1] bcast_S64_S1x64_1 : (⟨S64, .f32⟩ : BufTy).Contents (Elt F) → (⟨S1x64, .f32⟩ : BufTy).Contents (Elt F)),
    StableHlo.unary main_v106 main_v107 (broadcastInDim S50000x64 ![0, 1] bcast_S1x64_S50000x64_0_1 : (⟨S1x64, .f32⟩ : BufTy).Contents (Elt F) → (⟨S50000x64, .f32⟩ : BufTy).Contents (Elt F)),
    StableHlo.binary main_v105 main_v107 main_v108 (addf : (⟨S50000x64, .f32⟩ : BufTy).Contents (Elt F) → (⟨S50000x64, .f32⟩ : BufTy).Contents (Elt F) → (⟨S50000x64, .f32⟩ : BufTy).Contents (Elt F)) ]

set_option maxRecDepth 4096 in
/-- The main function is that straight line: its three windows, the called functions' bodies at their calls and the
    call's buffer record at its fields unfolded, and the sequencing re-associated, both sides are one chain of steps. -/
theorem main_eq (c : Dev nD) : main (F := F) c = seq ops := by
  simp only [main, main_part0, main_part1, main_part2, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's main processor only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., unary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub ..⟩

/-! ## The five stretches

The list is its five stretches one after the other, and running a list that is two lists joined is running the first
and then the second. -/

/-- The first stretch (14 operations): the edge lists with the self loops, the degrees and their inverse square roots. -/
abbrev ops_a : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.unary main_v10 main_v11 (Host.rsqrt : (⟨S50000, .f32⟩ : BufTy).Contents (Elt F) → (⟨S50000, .f32⟩ : BufTy).Contents (Elt F)) ]

/-- The second stretch (39 operations): `x · W1`, the edges' weights, and the first layer's sum over the edges plus its bias. -/
abbrev ops_b : List (HloOp τ sig (Elt F)) :=
  [ StableHlo.binary main_arg0 main_arg2 main_v12 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c (constantI S_ 32 0#32),
    StableHlo.unary main_c main_v13 (broadcastInDim S850000 ![] bcast_S_S850000 : (⟨S_, .i32⟩ : BufTy).Contents (Elt F) → (⟨S850000, .i32⟩ : BufTy).Contents (Elt F)),
    StableHlo.binary main_v3 main_v13 main_v14 (cmpi .slt : (⟨S850000, .i32⟩ : BufTy).Contents (Elt F) → (⟨S850000, .i32⟩ : BufTy).Contents (Elt F) → (⟨S850000, .i1⟩ : BufTy).Contents (Elt F)),
    StableHlo.nullary main_c_1 (constantI S_ 32 50000#32),
    StableHlo.unary main_c_1 main_v15 (broadcastInDim S850000 ![] bcast_S_S850000 : (⟨S_, .i32⟩ : BufTy).Contents (Elt F) → (⟨S850000, .i32⟩ : BufTy).Contents (Elt F)),
    StableHlo.binary main_v3 main_v15 main_v16 (addi : (⟨S850000, .i32⟩ : BufTy).Contents (Elt F) → (⟨S850000, .i32⟩ : BufTy).Contents (Elt F) → (⟨S850000, .i32⟩ : BufTy).Contents (Elt F)),
    StableHlo.ternary main_v14 main_v16 main_v3 main_v17 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v17 main_v18 (broadcastInDim S850000x1 ![0] bcast_S850000_S850000x1_0 : (⟨S850000, .i32⟩ : BufTy).Contents (Elt F) → (⟨S850000x1, .i32⟩ : BufTy).Contents (Elt F)),
    StableHlo.binary main_v11 main_v18 main_v19 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_2 (constantI S_ 32 0#32),
    StableHlo.unary main_c_2 main_v20 (broadcastInDim S850000 ![] bcast_S_S850000 : (⟨S_, .i32⟩ : BufTy).Contents (Elt F) → (⟨S850000, .i32⟩ : BufTy).Contents (Elt F)),
    StableHlo.binary main_v6 main_v20 main_v21 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v22 (broadcastInDim S850000 ![] bcast_S_S850000 : (⟨S_, .i32⟩ : BufTy).Contents (Elt F) → (⟨S850000, .i32⟩ : BufTy).Contents (Elt F)),
    StableHlo.binary main_v6 main_v22 main_v23 (addi : (⟨S850000, .i32⟩ : BufTy).Contents (Elt F) → (⟨S850000, .i32⟩ : BufTy).Contents (Elt F) → (⟨S850000, .i32⟩ : BufTy).Contents (Elt F)),
    StableHlo.ternary main_v21 main_v23 main_v6 main_v24 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v24 main_v25 (broadcastInDim S850000x1 ![0] bcast_S850000_S850000x1_0 : (⟨S850000, .i32⟩ : BufTy).Contents (Elt F) → (⟨S850000x1, .i32⟩ : BufTy).Contents (Elt F)),
    StableHlo.binary main_v11 main_v25 main_v26 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v19 main_v26 main_v27 (mulf : (⟨S850000, .f32⟩ : BufTy).Contents (Elt F) → (⟨S850000, .f32⟩ : BufTy).Contents (Elt F) → (⟨S850000, .f32⟩ : BufTy).Contents (Elt F)),
    StableHlo.unary main_v27 main_v28 (broadcastInDim S850000x1 ![0] bcast_S850000_S850000x1_0 : (⟨S850000, .f32⟩ : BufTy).Contents (Elt F) → (⟨S850000x1, .f32⟩ : BufTy).Contents (Elt F)),
    StableHlo.nullary main_c_4 (constantI S_ 32 0#32),
    StableHlo.unary main_c_4 main_v29 (broadcastInDim S850000 ![] bcast_S_S850000 : (⟨S_, .i32⟩ : BufTy).Contents (Elt F) → (⟨S850000, .i32⟩ : BufTy).Contents (Elt F)),
    StableHlo.binary main_v3 main_v29 main_v30 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v31 (broadcastInDim S850000 ![] bcast_S_S850000 : (⟨S_, .i32⟩ : BufTy).Contents (Elt F) → (⟨S850000, .i32⟩ : BufTy).Contents (Elt F)),
    StableHlo.binary main_v3 main_v31 main_v32 (addi : (⟨S850000, .i32⟩ : BufTy).Contents (Elt F) → (⟨S850000, .i32⟩ : BufTy).Contents (Elt F) → (⟨S850000, .i32⟩ : BufTy).Contents (Elt F)),
    StableHlo.ternary main_v30 main_v32 main_v3 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v33 main_v34 (broadcastInDim S850000x1 ![0] bcast_S850000_S850000x1_0 : (⟨S850000, .i32⟩ : BufTy).Contents (Elt F) → (⟨S850000x1, .i32⟩ : BufTy).Contents (Elt F)),
    StableHlo.binary main_v12 main_v34 main_v35 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v28 main_v36 (broadcastInDim S850000x128 ![0, 1] bcast_S850000x1_S850000x128_0_1 : (⟨S850000x1, .f32⟩ : BufTy).Contents (Elt F) → (⟨S850000x128, .f32⟩ : BufTy).Contents (Elt F)),
    StableHlo.binary main_v35 main_v36 main_v37 (mulf : (⟨S850000x128, .f32⟩ : BufTy).Contents (Elt F) → (⟨S850000x128, .f32⟩ : BufTy).Contents (Elt F) → (⟨S850000x128, .f32⟩ : BufTy).Contents (Elt F)),
    StableHlo.nullary main_cst_6 (constant S_ .f32 0x00000000#32),
    StableHlo.unary main_cst_6 main_v38 (broadcastInDim S50000x128 ![] bcast_S_S50000x128 : (⟨S_, .f32⟩ : BufTy).Contents (Elt F) → (⟨S50000x128, .f32⟩ : BufTy).Contents (Elt F)),
    StableHlo.unary main_v6 main_v39 (broadcastInDim S850000x1 ![0] bcast_S850000_S850000x1_0 : (⟨S850000, .i32⟩ : BufTy).Contents (Elt F) → (⟨S850000x1, .i32⟩ : BufTy).Contents (Elt F)),
    StableHlo.ternary main_v38 main_v39 main_v37 main_v40 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)) ]

/-- The third stretch (8 operations): the slope constant and the leaky rectifier (the call's seven operations). -/
abbrev ops_c : List (HloOp τ sig (Elt F)) :=
  [ StableHlo.nullary main_cst_7 (constant S_ .f32 0x3C23D70A#32),
    StableHlo.TRef.nullary main_call0.cst (constant S_ .f32 0x00000000#32),
    StableHlo.TRef.unary main_call0.cst main_call0.v0 (broadcastInDim S50000x128 ![] bcast_S_S50000x128),
    StableHlo.TRef.binary (.of main_v43 : StableHlo.TRef sig ⟨S50000x128, .f32⟩) main_call0.v0 main_call0.v1 (cmpf .oge),
    StableHlo.TRef.unary (.of main_cst_7 : StableHlo.TRef sig ⟨S_, .f32⟩) main_call0.v2 id,
    StableHlo.TRef.unary main_call0.v2 main_call0.v3 (broadcastInDim S50000x128 ![] bcast_S_S50000x128),
    StableHlo.TRef.binary main_call0.v3 (.of main_v43 : StableHlo.TRef sig ⟨S50000x128, .f32⟩) main_call0.v4 mulf,
    StableHlo.TRef.ternary main_call0.v1 (.of main_v43 : StableHlo.TRef sig ⟨S50000x128, .f32⟩) main_call0.v4 main_call0.call0.v0 select ]

/-- The fourth stretch (39 operations): the mean's head. -/
abbrev ops_d : List (HloOp τ sig (Elt F)) :=
  [ StableHlo.binary main_v44 main_arg4 main_v45 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_8 (constantI S_ 32 0#32),
    StableHlo.unary main_c_8 main_v46 (broadcastInDim S850000 ![] bcast_S_S850000 : (⟨S_, .i32⟩ : BufTy).Contents (Elt F) → (⟨S850000, .i32⟩ : BufTy).Contents (Elt F)),
    StableHlo.binary main_v3 main_v46 main_v47 (cmpi .slt : (⟨S850000, .i32⟩ : BufTy).Contents (Elt F) → (⟨S850000, .i32⟩ : BufTy).Contents (Elt F) → (⟨S850000, .i1⟩ : BufTy).Contents (Elt F)),
    StableHlo.nullary main_c_9 (constantI S_ 32 50000#32),
    StableHlo.unary main_c_9 main_v48 (broadcastInDim S850000 ![] bcast_S_S850000 : (⟨S_, .i32⟩ : BufTy).Contents (Elt F) → (⟨S850000, .i32⟩ : BufTy).Contents (Elt F)),
    StableHlo.binary main_v3 main_v48 main_v49 (addi : (⟨S850000, .i32⟩ : BufTy).Contents (Elt F) → (⟨S850000, .i32⟩ : BufTy).Contents (Elt F) → (⟨S850000, .i32⟩ : BufTy).Contents (Elt F)),
    StableHlo.ternary main_v47 main_v49 main_v3 main_v50 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v50 main_v51 (broadcastInDim S850000x1 ![0] bcast_S850000_S850000x1_0 : (⟨S850000, .i32⟩ : BufTy).Contents (Elt F) → (⟨S850000x1, .i32⟩ : BufTy).Contents (Elt F)),
    StableHlo.binary main_v11 main_v51 main_v52 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_10 (constantI S_ 32 0#32),
    StableHlo.unary main_c_10 main_v53 (broadcastInDim S850000 ![] bcast_S_S850000 : (⟨S_, .i32⟩ : BufTy).Contents (Elt F) → (⟨S850000, .i32⟩ : BufTy).Contents (Elt F)),
    StableHlo.binary main_v6 main_v53 main_v54 (cmpi .slt : (⟨S850000, .i32⟩ : BufTy).Contents (Elt F) → (⟨S850000, .i32⟩ : BufTy).Contents (Elt F) → (⟨S850000, .i1⟩ : BufTy).Contents (Elt F)),
    StableHlo.nullary main_c_11 (constantI S_ 32 50000#32),
    StableHlo.unary main_c_11 main_v55 (broadcastInDim S850000 ![] bcast_S_S850000 : (⟨S_, .i32⟩ : BufTy).Contents (Elt F) → (⟨S850000, .i32⟩ : BufTy).Contents (Elt F)),
    StableHlo.binary main_v6 main_v55 main_v56 (addi : (⟨S850000, .i32⟩ : BufTy).Contents (Elt F) → (⟨S850000, .i32⟩ : BufTy).Contents (Elt F) → (⟨S850000, .i32⟩ : BufTy).Contents (Elt F)),
    StableHlo.ternary main_v54 main_v56 main_v6 main_v57 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v57 main_v58 (broadcastInDim S850000x1 ![0] bcast_S850000_S850000x1_0 : (⟨S850000, .i32⟩ : BufTy).Contents (Elt F) → (⟨S850000x1, .i32⟩ : BufTy).Contents (Elt F)),
    StableHlo.binary main_v11 main_v58 main_v59 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v52 main_v59 main_v60 (mulf : (⟨S850000, .f32⟩ : BufTy).Contents (Elt F) → (⟨S850000, .f32⟩ : BufTy).Contents (Elt F) → (⟨S850000, .f32⟩ : BufTy).Contents (Elt F)),
    StableHlo.unary main_v60 main_v61 (broadcastInDim S850000x1 ![0] bcast_S850000_S850000x1_0 : (⟨S850000, .f32⟩ : BufTy).Contents (Elt F) → (⟨S850000x1, .f32⟩ : BufTy).Contents (Elt F)),
    StableHlo.nullary main_c_12 (constantI S_ 32 0#32),
    StableHlo.unary main_c_12 main_v62 (broadcastInDim S850000 ![] bcast_S_S850000 : (⟨S_, .i32⟩ : BufTy).Contents (Elt F) → (⟨S850000, .i32⟩ : BufTy).Contents (Elt F)),
    StableHlo.binary main_v3 main_v62 main_v63 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v64 (broadcastInDim S850000 ![] bcast_S_S850000 : (⟨S_, .i32⟩ : BufTy).Contents (Elt F) → (⟨S850000, .i32⟩ : BufTy).Contents (Elt F)),
    StableHlo.binary main_v3 main_v64 main_v65 (addi : (⟨S850000, .i32⟩ : BufTy).Contents (Elt F) → (⟨S850000, .i32⟩ : BufTy).Contents (Elt F) → (⟨S850000, .i32⟩ : BufTy).Contents (Elt F)),
    StableHlo.ternary main_v63 main_v65 main_v3 main_v66 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v66 main_v67 (broadcastInDim S850000x1 ![0] bcast_S850000_S850000x1_0 : (⟨S850000, .i32⟩ : BufTy).Contents (Elt F) → (⟨S850000x1, .i32⟩ : BufTy).Contents (Elt F)),
    StableHlo.binary main_v45 main_v67 main_v68 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v61 main_v69 (broadcastInDim S850000x64 ![0, 1] bcast_S850000x1_S850000x64_0_1 : (⟨S850000x1, .f32⟩ : BufTy).Contents (Elt F) → (⟨S850000x64, .f32⟩ : BufTy).Contents (Elt F)),
    StableHlo.binary main_v68 main_v69 main_v70 (mulf : (⟨S850000x64, .f32⟩ : BufTy).Contents (Elt F) → (⟨S850000x64, .f32⟩ : BufTy).Contents (Elt F) → (⟨S850000x64, .f32⟩ : BufTy).Contents (Elt F)),
    StableHlo.nullary main_cst_14 (constant S_ .f32 0x00000000#32),
    StableHlo.unary main_cst_14 main_v71 (broadcastInDim S50000x64 ![] bcast_S_S50000x64 : (⟨S_, .f32⟩ : BufTy).Contents (Elt F) → (⟨S50000x64, .f32⟩ : BufTy).Contents (Elt F)),
    StableHlo.unary main_v6 main_v72 (broadcastInDim S850000x1 ![0] bcast_S850000_S850000x1_0 : (⟨S850000, .i32⟩ : BufTy).Contents (Elt F) → (⟨S850000x1, .i32⟩ : BufTy).Contents (Elt F)),
    StableHlo.ternary main_v71 main_v72 main_v70 main_v73 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg5 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S50000x64 ![0, 1] bcast_S1x64_S50000x64_0_1 : (⟨S1x64, .f32⟩ : BufTy).Contents (Elt F) → (⟨S50000x64, .f32⟩ : BufTy).Contents (Elt F)),
    StableHlo.binary main_v73 main_v75 main_v76 (addf : (⟨S50000x64, .f32⟩ : BufTy).Contents (Elt F) → (⟨S50000x64, .f32⟩ : BufTy).Contents (Elt F) → (⟨S50000x64, .f32⟩ : BufTy).Contents (Elt F)) ]

/-- The fifth stretch (39 operations): the log-variance's head. -/
abbrev ops_e : List (HloOp τ sig (Elt F)) :=
  [ StableHlo.binary main_v44 main_arg6 main_v77 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_15 (constantI S_ 32 0#32),
    StableHlo.unary main_c_15 main_v78 (broadcastInDim S850000 ![] bcast_S_S850000 : (⟨S_, .i32⟩ : BufTy).Contents (Elt F) → (⟨S850000, .i32⟩ : BufTy).Contents (Elt F)),
    StableHlo.binary main_v3 main_v78 main_v79 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v80 (broadcastInDim S850000 ![] bcast_S_S850000 : (⟨S_, .i32⟩ : BufTy).Contents (Elt F) → (⟨S850000, .i32⟩ : BufTy).Contents (Elt F)),
    StableHlo.binary main_v3 main_v80 main_v81 (addi : (⟨S850000, .i32⟩ : BufTy).Contents (Elt F) → (⟨S850000, .i32⟩ : BufTy).Contents (Elt F) → (⟨S850000, .i32⟩ : BufTy).Contents (Elt F)),
    StableHlo.ternary main_v79 main_v81 main_v3 main_v82 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v82 main_v83 (broadcastInDim S850000x1 ![0] bcast_S850000_S850000x1_0 : (⟨S850000, .i32⟩ : BufTy).Contents (Elt F) → (⟨S850000x1, .i32⟩ : BufTy).Contents (Elt F)),
    StableHlo.binary main_v11 main_v83 main_v84 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_17 (constantI S_ 32 0#32),
    StableHlo.unary main_c_17 main_v85 (broadcastInDim S850000 ![] bcast_S_S850000 : (⟨S_, .i32⟩ : BufTy).Contents (Elt F) → (⟨S850000, .i32⟩ : BufTy).Contents (Elt F)),
    StableHlo.binary main_v6 main_v85 main_v86 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v87 (broadcastInDim S850000 ![] bcast_S_S850000 : (⟨S_, .i32⟩ : BufTy).Contents (Elt F) → (⟨S850000, .i32⟩ : BufTy).Contents (Elt F)),
    StableHlo.binary main_v6 main_v87 main_v88 (addi : (⟨S850000, .i32⟩ : BufTy).Contents (Elt F) → (⟨S850000, .i32⟩ : BufTy).Contents (Elt F) → (⟨S850000, .i32⟩ : BufTy).Contents (Elt F)),
    StableHlo.ternary main_v86 main_v88 main_v6 main_v89 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v89 main_v90 (broadcastInDim S850000x1 ![0] bcast_S850000_S850000x1_0 : (⟨S850000, .i32⟩ : BufTy).Contents (Elt F) → (⟨S850000x1, .i32⟩ : BufTy).Contents (Elt F)),
    StableHlo.binary main_v11 main_v90 main_v91 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v84 main_v91 main_v92 (mulf : (⟨S850000, .f32⟩ : BufTy).Contents (Elt F) → (⟨S850000, .f32⟩ : BufTy).Contents (Elt F) → (⟨S850000, .f32⟩ : BufTy).Contents (Elt F)),
    StableHlo.unary main_v92 main_v93 (broadcastInDim S850000x1 ![0] bcast_S850000_S850000x1_0 : (⟨S850000, .f32⟩ : BufTy).Contents (Elt F) → (⟨S850000x1, .f32⟩ : BufTy).Contents (Elt F)),
    StableHlo.nullary main_c_19 (constantI S_ 32 0#32),
    StableHlo.unary main_c_19 main_v94 (broadcastInDim S850000 ![] bcast_S_S850000 : (⟨S_, .i32⟩ : BufTy).Contents (Elt F) → (⟨S850000, .i32⟩ : BufTy).Contents (Elt F)),
    StableHlo.binary main_v3 main_v94 main_v95 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v96 (broadcastInDim S850000 ![] bcast_S_S850000 : (⟨S_, .i32⟩ : BufTy).Contents (Elt F) → (⟨S850000, .i32⟩ : BufTy).Contents (Elt F)),
    StableHlo.binary main_v3 main_v96 main_v97 (addi : (⟨S850000, .i32⟩ : BufTy).Contents (Elt F) → (⟨S850000, .i32⟩ : BufTy).Contents (Elt F) → (⟨S850000, .i32⟩ : BufTy).Contents (Elt F)),
    StableHlo.ternary main_v95 main_v97 main_v3 main_v98 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v98 main_v99 (broadcastInDim S850000x1 ![0] bcast_S850000_S850000x1_0 : (⟨S850000, .i32⟩ : BufTy).Contents (Elt F) → (⟨S850000x1, .i32⟩ : BufTy).Contents (Elt F)),
    StableHlo.binary main_v77 main_v99 main_v100 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v93 main_v101 (broadcastInDim S850000x64 ![0, 1] bcast_S850000x1_S850000x64_0_1 : (⟨S850000x1, .f32⟩ : BufTy).Contents (Elt F) → (⟨S850000x64, .f32⟩ : BufTy).Contents (Elt F)),
    StableHlo.binary main_v100 main_v101 main_v102 (mulf : (⟨S850000x64, .f32⟩ : BufTy).Contents (Elt F) → (⟨S850000x64, .f32⟩ : BufTy).Contents (Elt F) → (⟨S850000x64, .f32⟩ : BufTy).Contents (Elt F)),
    StableHlo.nullary main_cst_21 (constant S_ .f32 0x00000000#32),
    StableHlo.unary main_cst_21 main_v103 (broadcastInDim S50000x64 ![] bcast_S_S50000x64 : (⟨S_, .f32⟩ : BufTy).Contents (Elt F) → (⟨S50000x64, .f32⟩ : BufTy).Contents (Elt F)),
    StableHlo.unary main_v6 main_v104 (broadcastInDim S850000x1 ![0] bcast_S850000_S850000x1_0 : (⟨S850000, .i32⟩ : BufTy).Contents (Elt F) → (⟨S850000x1, .i32⟩ : BufTy).Contents (Elt F)),
    StableHlo.ternary main_v103 main_v104 main_v102 main_v105 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg7 main_v106 (broadcastInDim S1x64 ![1] bcast_S64_S1x64_1 : (⟨S64, .f32⟩ : BufTy).Contents (Elt F) → (⟨S1x64, .f32⟩ : BufTy).Contents (Elt F)),
    StableHlo.unary main_v106 main_v107 (broadcastInDim S50000x64 ![0, 1] bcast_S1x64_S50000x64_0_1 : (⟨S1x64, .f32⟩ : BufTy).Contents (Elt F) → (⟨S50000x64, .f32⟩ : BufTy).Contents (Elt F)),
    StableHlo.binary main_v105 main_v107 main_v108 (addf : (⟨S50000x64, .f32⟩ : BufTy).Contents (Elt F) → (⟨S50000x64, .f32⟩ : BufTy).Contents (Elt F) → (⟨S50000x64, .f32⟩ : BufTy).Contents (Elt F)) ]

theorem ops_split : (ops : List (HloOp τ sig (Elt F))) = ops_a ++ (ops_b ++ (ops_c ++ (ops_d ++ ops_e))) := rfl

theorem after_join : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_join l₁ l₂]

/-! ## Each stretch over an arbitrary valuation `W` of the buffers

A stretch's result buffer holds the stretch's operations composed, applied to what `W` holds at the buffers the
stretch reads (given as hypotheses); a buffer the stretch does not write is as in `W`. -/

section Stretches

variable (W : Valuation τ sig (Elt Ideal))

/-- The sources: row 0 of the edge array, then the self loops. -/
theorem a_v3 (ei : IVec S2x800000 32) (h1 : W (Proc.devRef .tc main_arg1) = ei) :
    after (ops_a (F := Ideal)) W (Proc.devRef .tc main_v3) = RefTerm.src ei := by
  subst h1; after_results; rfl
/-- The destinations: row 1 of the edge array, then the self loops. -/
theorem a_v6 (ei : IVec S2x800000 32) (h1 : W (Proc.devRef .tc main_arg1) = ei) :
    after (ops_a (F := Ideal)) W (Proc.devRef .tc main_v6) = RefTerm.dst ei := by
  subst h1; after_results; rfl
/-- `deg^(-1/2)`: ones added up at the destinations, then the inverse square root. -/
theorem a_v11 (ei : IVec S2x800000 32) (h1 : W (Proc.devRef .tc main_arg1) = ei) :
    after (ops_a (F := Ideal)) W (Proc.devRef .tc main_v11) = RefTerm.dis ei := by
  subst h1; after_results; rfl
theorem a_arg0 : after (ops_a (F := Ideal)) W (Proc.devRef .tc main_arg0) = W (Proc.devRef .tc main_arg0) := by
  after_results_simp
theorem a_arg2 : after (ops_a (F := Ideal)) W (Proc.devRef .tc main_arg2) = W (Proc.devRef .tc main_arg2) := by
  after_results_simp
theorem a_arg3 : after (ops_a (F := Ideal)) W (Proc.devRef .tc main_arg3) = W (Proc.devRef .tc main_arg3) := by
  after_results_simp
theorem a_arg4 : after (ops_a (F := Ideal)) W (Proc.devRef .tc main_arg4) = W (Proc.devRef .tc main_arg4) := by
  after_results_simp
theorem a_arg5 : after (ops_a (F := Ideal)) W (Proc.devRef .tc main_arg5) = W (Proc.devRef .tc main_arg5) := by
  after_results_simp
theorem a_arg6 : after (ops_a (F := Ideal)) W (Proc.devRef .tc main_arg6) = W (Proc.devRef .tc main_arg6) := by
  after_results_simp
theorem a_arg7 : after (ops_a (F := Ideal)) W (Proc.devRef .tc main_arg7) = W (Proc.devRef .tc main_arg7) := by
  after_results_simp

/-- The first layer: the sources' rows of `x · W1` weighed by the edges' weights, added up at the destinations, plus
    the bias. -/
theorem b_v43 (ei : IVec S2x800000 32) (x : FVec Ideal S50000x256 .f32) (W1 : FVec Ideal S256x128 .f32) (b1 : FVec Ideal S128 .f32)
    (h3 : W (Proc.devRef .tc main_v3) = RefTerm.src ei) (h6 : W (Proc.devRef .tc main_v6) = RefTerm.dst ei)
    (h11 : W (Proc.devRef .tc main_v11) = RefTerm.dis ei) (h0 : W (Proc.devRef .tc main_arg0) = x) (h2 : W (Proc.devRef .tc main_arg2) = W1)
    (hb : W (Proc.devRef .tc main_arg3) = b1) :
    after (ops_b (F := Ideal)) W (Proc.devRef .tc main_v43)
      = RefTerm.conv128 ei (Host.dotGeneral dot_S50000x256_S256x128_S50000x128_1_0_0_1_n_n none x W1) b1 := by
  subst h0 h2 hb
  after_results_simp
  rw [h3, h6, h11]
  unfold RefTerm.conv128 RefTerm.enorm RefTerm.col RefTerm.wrap
  with_reducible rfl
/-- The leaky rectifier of what the first layer left. -/
theorem c_v44 (x : FVec Ideal S50000x128 .f32) (h43 : W (Proc.devRef .tc main_v43) = x) :
    after (ops_c (F := Ideal)) W (Proc.devRef .tc main_v44) = RefTerm.leaky x := by
  after_results
  rw [h43]
  rfl
theorem bc_v3 : after (ops_c (F := Ideal)) (after ops_b W) (Proc.devRef .tc main_v3) = W (Proc.devRef .tc main_v3) := by
  after_results_simp
theorem bc_v6 : after (ops_c (F := Ideal)) (after ops_b W) (Proc.devRef .tc main_v6) = W (Proc.devRef .tc main_v6) := by
  after_results_simp
theorem bc_v11 : after (ops_c (F := Ideal)) (after ops_b W) (Proc.devRef .tc main_v11) = W (Proc.devRef .tc main_v11) := by
  after_results_simp
theorem abc_arg4 : after (ops_c (F := Ideal)) (after ops_b (after ops_a W)) (Proc.devRef .tc main_arg4) = W (Proc.devRef .tc main_arg4) := by
  after_results_simp
theorem abc_arg5 : after (ops_c (F := Ideal)) (after ops_b (after ops_a W)) (Proc.devRef .tc main_arg5) = W (Proc.devRef .tc main_arg5) := by
  after_results_simp
theorem abc_arg6 : after (ops_c (F := Ideal)) (after ops_b (after ops_a W)) (Proc.devRef .tc main_arg6) = W (Proc.devRef .tc main_arg6) := by
  after_results_simp
theorem abc_arg7 : after (ops_c (F := Ideal)) (after ops_b (after ops_a W)) (Proc.devRef .tc main_arg7) = W (Proc.devRef .tc main_arg7) := by
  after_results_simp

/-- The mean's head: the second layer on 64 features over `h · W`. -/
theorem d_v76 (ei : IVec S2x800000 32) (h : FVec Ideal S50000x128 .f32) (Wm : FVec Ideal S128x64 .f32) (bm : FVec Ideal S64 .f32)
    (h3 : W (Proc.devRef .tc main_v3) = RefTerm.src ei) (h6 : W (Proc.devRef .tc main_v6) = RefTerm.dst ei)
    (h11 : W (Proc.devRef .tc main_v11) = RefTerm.dis ei) (h44 : W (Proc.devRef .tc main_v44) = h) (h4 : W (Proc.devRef .tc main_arg4) = Wm)
    (h5 : W (Proc.devRef .tc main_arg5) = bm) :
    after (ops_d (F := Ideal)) W (Proc.devRef .tc main_v76)
      = RefTerm.conv64 ei (Host.dotGeneral dot_S50000x128_S128x64_S50000x64_1_0_0_1_n_n none h Wm) bm := by
  subst h44 h4 h5
  after_results_simp
  rw [h3, h6, h11]
  unfold RefTerm.conv64 RefTerm.enorm RefTerm.col RefTerm.wrap
  with_reducible rfl
theorem d_v3 : after (ops_d (F := Ideal)) W (Proc.devRef .tc main_v3) = W (Proc.devRef .tc main_v3) := by
  after_results_simp
theorem d_v6 : after (ops_d (F := Ideal)) W (Proc.devRef .tc main_v6) = W (Proc.devRef .tc main_v6) := by
  after_results_simp
theorem d_v11 : after (ops_d (F := Ideal)) W (Proc.devRef .tc main_v11) = W (Proc.devRef .tc main_v11) := by
  after_results_simp
theorem d_v44 : after (ops_d (F := Ideal)) W (Proc.devRef .tc main_v44) = W (Proc.devRef .tc main_v44) := by
  after_results_simp
theorem d_arg6 : after (ops_d (F := Ideal)) W (Proc.devRef .tc main_arg6) = W (Proc.devRef .tc main_arg6) := by
  after_results_simp
theorem d_arg7 : after (ops_d (F := Ideal)) W (Proc.devRef .tc main_arg7) = W (Proc.devRef .tc main_arg7) := by
  after_results_simp

/-- The log-variance's head: the same layer with its own weights and bias. -/
theorem e_v108 (ei : IVec S2x800000 32) (h : FVec Ideal S50000x128 .f32) (Wl : FVec Ideal S128x64 .f32) (bl : FVec Ideal S64 .f32)
    (h3 : W (Proc.devRef .tc main_v3) = RefTerm.src ei) (h6 : W (Proc.devRef .tc main_v6) = RefTerm.dst ei)
    (h11 : W (Proc.devRef .tc main_v11) = RefTerm.dis ei) (h44 : W (Proc.devRef .tc main_v44) = h) (h6' : W (Proc.devRef .tc main_arg6) = Wl)
    (h7 : W (Proc.devRef .tc main_arg7) = bl) :
    after (ops_e (F := Ideal)) W (Proc.devRef .tc main_v108)
      = RefTerm.conv64 ei (Host.dotGeneral dot_S50000x128_S128x64_S50000x64_1_0_0_1_n_n none h Wl) bl := by
  subst h44 h6' h7
  after_results_simp
  rw [h3, h6, h11]
  unfold RefTerm.conv64 RefTerm.enorm RefTerm.col RefTerm.wrap
  with_reducible rfl
theorem e_v76 : after (ops_e (F := Ideal)) W (Proc.devRef .tc main_v76) = W (Proc.devRef .tc main_v76) := by
  after_results_simp

end Stretches

/-! ## The contents at each stretch's end, from the launch contents `V`

Each fact is about one boundary and one buffer, from the facts of the boundary before it. -/

section Boundaries

variable (V : Valuation τ sig (Elt Ideal))

/-- After the second stretch: the first layer of `x · W1`. -/
theorem Wb_v43 : after (ops_b (F := Ideal)) (after ops_a V) (Proc.devRef .tc main_v43)
    = RefTerm.conv128 (V (Proc.devRef .tc main_arg1)) (Host.dotGeneral (φ₁ := .f32) (φ₂ := .f32) dot_S50000x256_S256x128_S50000x128_1_0_0_1_n_n none (V (Proc.devRef .tc main_arg0)) (V (Proc.devRef .tc main_arg2))) (V (Proc.devRef .tc main_arg3)) :=
  b_v43 (after ops_a V) _ _ _ _ (a_v3 V _ rfl) (a_v6 V _ rfl) (a_v11 V _ rfl) (a_arg0 V) (a_arg2 V) (a_arg3 V)
/-- After the third stretch: the hidden layer. -/
theorem Wc_v44 : after (ops_c (F := Ideal)) (after ops_b (after ops_a V)) (Proc.devRef .tc main_v44)
    = RefTerm.hid (V (Proc.devRef .tc main_arg0)) (V (Proc.devRef .tc main_arg1)) (V (Proc.devRef .tc main_arg2)) (V (Proc.devRef .tc main_arg3)) := by
  unfold RefTerm.hid
  exact c_v44 (after ops_b (after ops_a V)) _ (Wb_v43 V)
theorem Wc_v3 : after (ops_c (F := Ideal)) (after ops_b (after ops_a V)) (Proc.devRef .tc main_v3) = RefTerm.src (V (Proc.devRef .tc main_arg1)) :=
  (bc_v3 (after ops_a V)).trans (a_v3 V _ rfl)
theorem Wc_v6 : after (ops_c (F := Ideal)) (after ops_b (after ops_a V)) (Proc.devRef .tc main_v6) = RefTerm.dst (V (Proc.devRef .tc main_arg1)) :=
  (bc_v6 (after ops_a V)).trans (a_v6 V _ rfl)
theorem Wc_v11 : after (ops_c (F := Ideal)) (after ops_b (after ops_a V)) (Proc.devRef .tc main_v11) = RefTerm.dis (V (Proc.devRef .tc main_arg1)) :=
  (bc_v11 (after ops_a V)).trans (a_v11 V _ rfl)
/-- After the fourth stretch: the mean's head. -/
theorem Wd_v76 : after (ops_d (F := Ideal)) (after ops_c (after ops_b (after ops_a V))) (Proc.devRef .tc main_v76) = RefTerm.head (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold RefTerm.head
  exact d_v76 (after ops_c (after ops_b (after ops_a V))) _ _ _ _ (Wc_v3 V) (Wc_v6 V) (Wc_v11 V) (Wc_v44 V) (abc_arg4 V) (abc_arg5 V)
/-- After the fifth stretch: the log-variance's head. -/
theorem We_v108 : after (ops_e (F := Ideal)) (after ops_d (after ops_c (after ops_b (after ops_a V)))) (Proc.devRef .tc main_v108) = RefTerm.head (V (Proc.devRef .tc main_arg0)) (V (Proc.devRef .tc main_arg1)) (V (Proc.devRef .tc main_arg2)) (V (Proc.devRef .tc main_arg3)) (V (Proc.devRef .tc main_arg6)) (V (Proc.devRef .tc main_arg7)) := by
  unfold RefTerm.head
  exact e_v108 (after ops_d (after ops_c (after ops_b (after ops_a V)))) _ _ _ _ ((d_v3 (after ops_c (after ops_b (after ops_a V)))).trans (Wc_v3 V)) ((d_v6 (after ops_c (after ops_b (after ops_a V)))).trans (Wc_v6 V)) ((d_v11 (after ops_c (after ops_b (after ops_a V)))).trans (Wc_v11 V))
    ((d_v44 (after ops_c (after ops_b (after ops_a V)))).trans (Wc_v44 V)) ((d_arg6 (after ops_c (after ops_b (after ops_a V)))).trans (abc_arg6 V)) ((d_arg7 (after ops_c (after ops_b (after ops_a V)))).trans (abc_arg7 V))

/-- The whole list's first result: the mean's head of the arguments. -/
theorem v76_eq : after (ops (F := Ideal)) V (Proc.devRef .tc main_v76) = RefTerm.head (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, after_join, after_join, after_join, after_join]
  exact (e_v76 (after ops_d (after ops_c (after ops_b (after ops_a V))))).trans (Wd_v76 V)
/-- The whole list's second result: the log-variance's head of the arguments. -/
theorem v108_eq : after (ops (F := Ideal)) V (Proc.devRef .tc main_v108) = RefTerm.head (V (Proc.devRef .tc main_arg0)) (V (Proc.devRef .tc main_arg1)) (V (Proc.devRef .tc main_arg2)) (V (Proc.devRef .tc main_arg3)) (V (Proc.devRef .tc main_arg6)) (V (Proc.devRef .tc main_arg7)) := by
  rw [ops_split, after_join, after_join, after_join, after_join]
  exact We_v108 V

/-! No operation writes an argument. -/
theorem arg0_eq : after (ops (F := Ideal)) V (Proc.devRef .tc main_arg0) = V (Proc.devRef .tc main_arg0) := by
  after_results_simp
theorem arg1_eq : after (ops (F := Ideal)) V (Proc.devRef .tc main_arg1) = V (Proc.devRef .tc main_arg1) := by
  after_results_simp
theorem arg2_eq : after (ops (F := Ideal)) V (Proc.devRef .tc main_arg2) = V (Proc.devRef .tc main_arg2) := by
  after_results_simp
theorem arg3_eq : after (ops (F := Ideal)) V (Proc.devRef .tc main_arg3) = V (Proc.devRef .tc main_arg3) := by
  after_results_simp
theorem arg4_eq : after (ops (F := Ideal)) V (Proc.devRef .tc main_arg4) = V (Proc.devRef .tc main_arg4) := by
  after_results_simp
theorem arg5_eq : after (ops (F := Ideal)) V (Proc.devRef .tc main_arg5) = V (Proc.devRef .tc main_arg5) := by
  after_results_simp
theorem arg6_eq : after (ops (F := Ideal)) V (Proc.devRef .tc main_arg6) = V (Proc.devRef .tc main_arg6) := by
  after_results_simp
theorem arg7_eq : after (ops (F := Ideal)) V (Proc.devRef .tc main_arg7) = V (Proc.devRef .tc main_arg7) := by
  after_results_simp

end Boundaries

/-- Every weakly fair execution of the reference program terminates with its two results at `RefTerm.head` of the
    arguments' launch contents (with the mean's, resp. the log-variance's, weights and bias), the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v76) = RefTerm.head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v108) = RefTerm.head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun _ h c => ⟨(h c main_v76).trans (v76_eq _), (h c main_v108).trans (v108_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq (defs (F := Ideal)) (main (F := Ideal)) (fun _ => ops) main_eq (fun _ => ops_sub) m ρ)

end Cert.ReferenceIdeal.RefRun

end
-- ==== Proof.LibEdgeSum.lean ====
/-
  Sums over the edges of a graph, as the host's gather and scatter-add spell them.

  An edge list is a column `idx : [E, 1]` of node numbers (32-bit words read SIGNED). A scatter-add of per-edge updates
  into an array indexed by node — `[N]` from updates `[E]`, or `[N, C]` from updates `[E, C]`, each update row added
  at the row its edge names, an edge naming a row outside `0 … N-1` dropped — is, at the exact (extended-real) reading,
  the operand plus the SUM OVER THE EDGES THAT LAND ON THE ROW (`scatterAdd1_apply`, `scatterAdd2_apply`, over
  `into idx n`, the edges whose word is `n`); a gather of rows reads the row the edge names, clamped into `0 … N-1`
  (`gather1_apply`, `gather2_apply`, `row`). The one law of the extended reals a degree-normalised aggregation needs
  is `scale_sum`: a factor `c` moves into a sum over a finite set when the set is empty (both sides are then zero,
  whatever `c` is) or `c` is a real number ≥ 0 — and the inverse square root of the set's size is one or the other
  (`rsqrt_count`). `agg_eq` puts these together: scaling the gathered rows by `dis` before the sum and the sum by
  `dis` after it is the sum of the rows weighted by `dis[src] · dis[dst]`, for ANY rows. Beside them, the small reads
  such a proof meets: a list spread as a column or a row over a rank-2 array (`bcast_col_apply`, `bcast_cols_apply`,
  `bcast_row_apply`, `bcast_rows_apply`), a node number counted from the end (`wrap_of_nonneg`), and a plain
  `[M, K] × [K, P]` host product at an index as the sum over `k` (`plain_dot_apply`).
-/
import Idealize.ShloMosaic.PureOps.Ideal
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.LibEdgeSum

open Idealize.ShloMosaic Idealize.ShloMosaic.ValueIdx

variable {N E C w : Nat}

/-! ## The dimension numbers -/

/-- Scatter into `[N]` at one index column `[E, 1]`, updates `[E]`. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter of rows into `[N, C]` at one index column `[E, 1]`, updates `[E, C]`. -/
abbrev scat2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Gather from `[N]` at one index column `[E, 1]`, result `[E]`. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather of rows from `[N, C]` at one index column `[E, 1]`, result `[E, C]`. -/
abbrev gath2 (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The node edge `e` names, as a signed integer. -/
abbrev key (idx : IVec ⟨2, ![E, 1]⟩ w) (e : Fin E) : Int := (idx (ix2 e (0 : Fin 1))).toInt

/-! ## Where an update lands -/

theorem scat1_start (wf) (idx : IVec ⟨2, ![E, 1]⟩ w) (e : Fin E) (a : Fin 1) :
    (scat1 N E wf).start (ix1 e) idx a = key idx e := by
  obtain rfl : a = 0 := Subsingleton.elim _ _
  unfold ScatterDims.start
  rw [dif_pos (List.mem_singleton.mpr rfl)]
  have hsi : (scat1 N E wf).siIdx (ix1 e) ⟨List.idxOf (0 : Fin 1) (scat1 N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The axes kept by `Shape.kept` are the ones not listed. -/
theorem mem_kept {s : Shape} (l : List (Fin s.rank)) (a : Fin s.rank) : a ∈ s.kept l ↔ a ∉ l := by
  simp [Shape.kept]

theorem scat1_window (wf) (e : Fin E) (a : Fin 1) : (scat1 N E wf).window (ix1 e) a = 0 := by
  unfold ScatterDims.window
  rw [dif_neg]
  obtain rfl : a = 0 := Subsingleton.elim _ _
  exact fun h => (mem_kept _ _).1 h (List.mem_singleton.mpr rfl)

/-- An update of the rank-1 scatter lands on row `n` exactly when its edge names `n`. -/
theorem scat1_resultIdx (wf) (idx : IVec ⟨2, ![E, 1]⟩ w) (e : Fin E) (n : Fin N) :
    (scat1 N E wf).resultIdx? (ix1 e) idx = some (ix1 n) ↔ key idx e = (n.val : Int) := by
  unfold ScatterDims.resultIdx?
  simp only [scat1_start, scat1_window, Nat.cast_zero, Int.add_zero]
  constructor
  · intro h
    split at h
    · rename_i hc
      have h0 := congrArg (fun v => ((v 0 : Fin _) : Nat)) (Option.some.inj h)
      have hk := (hc 0).1
      change (key idx e).toNat = n.val at h0
      omega
    · cases h
  · intro hk
    have hc : ∀ a : Fin 1, 0 ≤ key idx e ∧ key idx e < (((⟨1, ![N]⟩ : Shape).size a : Nat) : Int) := by
      intro a; obtain rfl : a = 0 := Subsingleton.elim _ _
      refine ⟨by omega, ?_⟩
      show key idx e < (N : Int)
      have := n.isLt; omega
    rw [dif_pos hc]
    congr 1
    funext a; obtain rfl : a = 0 := Subsingleton.elim _ _
    refine Fin.ext ?_
    show (key idx e).toNat = n.val
    omega

theorem scat2_start0 (wf) (idx : IVec ⟨2, ![E, 1]⟩ w) (e : Fin E) (f : Fin C) :
    (scat2 N E C wf).start (ix2 e f) idx (0 : Fin 2) = key idx e := by
  unfold ScatterDims.start
  rw [dif_pos (List.mem_singleton.mpr rfl)]
  have hsi : (scat2 N E C wf).siIdx (ix2 e f) ⟨List.idxOf (0 : Fin 2) (scat2 N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat2_start1 (wf) (idx : IVec ⟨2, ![E, 1]⟩ w) (e : Fin E) (f : Fin C) :
    (scat2 N E C wf).start (ix2 e f) idx (1 : Fin 2) = 0 := by
  unfold ScatterDims.start
  rw [dif_neg (show (1 : Fin 2) ∉ [(0 : Fin 2)] by decide)]

theorem scat2_window0 (wf) (e : Fin E) (f : Fin C) : (scat2 N E C wf).window (ix2 e f) (0 : Fin 2) = 0 := by
  unfold ScatterDims.window
  rw [dif_neg]
  exact fun h => (mem_kept _ _).1 h (List.mem_singleton.mpr rfl)

theorem scat2_window1 (wf) (e : Fin E) (f : Fin C) : (scat2 N E C wf).window (ix2 e f) (1 : Fin 2) = f.val := by
  unfold ScatterDims.window
  rw [dif_pos ((mem_kept _ _).2 (show (1 : Fin 2) ∉ [(0 : Fin 2)] by decide))]
  rfl

/-- An update row of the rank-2 scatter lands on `(n, f)` exactly when its edge names `n` and it is column `f`. -/
theorem scat2_resultIdx (wf) (idx : IVec ⟨2, ![E, 1]⟩ w) (e : Fin E) (f' : Fin C) (n : Fin N) (f : Fin C) :
    (scat2 N E C wf).resultIdx? (ix2 e f') idx = some (ix2 n f) ↔ key idx e = (n.val : Int) ∧ f' = f := by
  unfold ScatterDims.resultIdx?
  constructor
  · intro h
    split at h
    · rename_i hc
      have hv := Option.some.inj h
      have h0 : ((scat2 N E C wf).start (ix2 e f') idx 0 + ((scat2 N E C wf).window (ix2 e f') 0 : Nat)).toNat = n.val :=
        congrArg (fun v => ((v 0 : Fin _) : Nat)) hv
      have h1 : ((scat2 N E C wf).start (ix2 e f') idx 1 + ((scat2 N E C wf).window (ix2 e f') 1 : Nat)).toNat = f.val :=
        congrArg (fun v => ((v 1 : Fin _) : Nat)) hv
      have hk := (hc 0).1
      rw [scat2_start0, scat2_window0] at h0 hk
      rw [scat2_start1, scat2_window1] at h1
      exact ⟨by omega, Fin.ext (by omega)⟩
    · cases h
  · rintro ⟨hk, rfl⟩
    have hn := n.isLt
    have hf := f'.isLt
    have hc : ∀ a : Fin 2, 0 ≤ (scat2 N E C wf).start (ix2 e f') idx a + ((scat2 N E C wf).window (ix2 e f') a : Nat) ∧
        (scat2 N E C wf).start (ix2 e f') idx a + ((scat2 N E C wf).window (ix2 e f') a : Nat)
          < (((⟨2, ![N, C]⟩ : Shape).size a : Nat) : Int) := by
      intro a
      match a with
      | ⟨0, _⟩ =>
        show 0 ≤ (scat2 N E C wf).start (ix2 e f') idx 0 + ((scat2 N E C wf).window (ix2 e f') 0 : Nat) ∧
          (scat2 N E C wf).start (ix2 e f') idx 0 + ((scat2 N E C wf).window (ix2 e f') 0 : Nat) < (N : Int)
        rw [scat2_start0, scat2_window0]; omega
      | ⟨1, _⟩ =>
        show 0 ≤ (scat2 N E C wf).start (ix2 e f') idx 1 + ((scat2 N E C wf).window (ix2 e f') 1 : Nat) ∧
          (scat2 N E C wf).start (ix2 e f') idx 1 + ((scat2 N E C wf).window (ix2 e f') 1 : Nat) < (C : Int)
        rw [scat2_start1, scat2_window1]; omega
    rw [dif_pos hc]
    congr 1
    funext a
    refine Fin.ext ?_
    match a with
    | ⟨0, _⟩ =>
      show ((scat2 N E C wf).start (ix2 e f') idx 0 + ((scat2 N E C wf).window (ix2 e f') 0 : Nat)).toNat = n.val
      rw [scat2_start0, scat2_window0]; omega
    | ⟨1, _⟩ =>
      show ((scat2 N E C wf).start (ix2 e f') idx 1 + ((scat2 N E C wf).window (ix2 e f') 1 : Nat)).toNat = f'.val
      rw [scat2_start1, scat2_window1]; omega

/-! ## A scatter-add read at an index: the operand plus the sum over the edges that land there -/

/-- The edges naming node `n`. -/
abbrev into (idx : IVec ⟨2, ![E, 1]⟩ w) (n : Fin N) : Finset (Fin E) :=
  Finset.univ.filter fun e => key idx e = (n.val : Int)

/-- A rank-1 index set is its one coordinate's range. -/
def idxEquiv1 {n : Nat} : Fin n ≃ (⟨1, ![n]⟩ : Shape).Idx where
  toFun e := ix1 e
  invFun j := j 0
  left_inv _ := rfl
  right_inv j := (eq_ix1 j).symm

theorem scatterAdd1_apply (wf) (x : (⟨1, ![N]⟩ : Shape).Idx → EReal) (idx : IVec ⟨2, ![E, 1]⟩ w)
    (upd : (⟨1, ![E]⟩ : Shape).Idx → EReal) (n : Fin N) :
    Ideal.hostScatterAdd (scat1 N E wf) x idx upd (ix1 n) = x (ix1 n) + ∑ e ∈ into idx n, upd (ix1 e) := by
  unfold Ideal.hostScatterAdd
  congr 1
  rw [Finset.sum_filter, Finset.sum_filter]
  refine (Fintype.sum_equiv idxEquiv1 _ _ fun e => ?_).symm
  show (if key idx e = (n.val : Int) then upd (ix1 e) else 0)
    = if (scat1 N E wf).resultIdx? (ix1 e) idx = some (ix1 n) then upd (ix1 e) else 0
  simp only [scat1_resultIdx]

theorem scatterAdd2_apply (wf) (x : (⟨2, ![N, C]⟩ : Shape).Idx → EReal) (idx : IVec ⟨2, ![E, 1]⟩ w)
    (upd : (⟨2, ![E, C]⟩ : Shape).Idx → EReal) (n : Fin N) (f : Fin C) :
    Ideal.hostScatterAdd (scat2 N E C wf) x idx upd (ix2 n f) = x (ix2 n f) + ∑ e ∈ into idx n, upd (ix2 e f) := by
  unfold Ideal.hostScatterAdd
  congr 1
  rw [Finset.sum_filter, Finset.sum_filter, sum_idx2]
  refine Finset.sum_congr rfl fun e _ => ?_
  simp only [scat2_resultIdx]
  by_cases hP : key idx e = (n.val : Int)
  · simp only [hP, true_and, if_true]
    rw [Finset.sum_ite_eq' Finset.univ f (fun b => upd (ix2 e b))]
    simp
  · simp only [hP, false_and, if_false, Finset.sum_const_zero]

/-! ## A gather of rows read at an index -/

/-- The row edge `e` reads: the node it names, clamped into `0 … N-1`. -/
def row (hN : 0 < N) (idx : IVec ⟨2, ![E, 1]⟩ w) (e : Fin E) : Fin N := ⟨min (key idx e).toNat (N - 1), by omega⟩

/-- An edge that names a node of the graph reads that node's row. -/
theorem row_of_key (hN : 0 < N) (idx : IVec ⟨2, ![E, 1]⟩ w) (e : Fin E) (n : Fin N) (h : key idx e = (n.val : Int)) :
    row hN idx e = n := by
  refine Fin.ext ?_
  show min (key idx e).toNat (N - 1) = n.val
  have := n.isLt
  omega

theorem gather1_apply {α : Type} (hN : 0 < N) (wf) (x : (⟨1, ![N]⟩ : Shape).Idx → α) (idx : IVec ⟨2, ![E, 1]⟩ w) (e : Fin E) :
    Host.gather (gath1 N E wf) x idx (ix1 e) = x (ix1 (row hN idx e)) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx (ix1 e) ⟨List.idxOf (0 : Fin 1) (gath1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gather2_apply {α : Type} (hN : 0 < N) (wf) (x : (⟨2, ![N, C]⟩ : Shape).Idx → α) (idx : IVec ⟨2, ![E, 1]⟩ w)
    (e : Fin E) (f : Fin C) :
    Host.gather (gath2 N E C wf) x idx (ix2 e f) = x (ix2 (row hN idx e) f) := by
  unfold Host.gather
  congr 1
  funext a
  refine Fin.ext ?_
  match a with
  | ⟨0, _⟩ =>
    show (gath2 N E C wf).start (ix2 e f) idx 0 + (gath2 N E C wf).batchCoord (ix2 e f) 0
      + (gath2 N E C wf).offCoord (ix2 e f) 0 = min (key idx e).toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N E C wf).startIndexMap from List.mem_singleton.mpr rfl)]
    have hsi : (gath2 N E C wf).siIdx (ix2 e f) ⟨List.idxOf (0 : Fin 2) (gath2 N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N E C wf).start (ix2 e f) idx 1 + (gath2 N E C wf).batchCoord (ix2 e f) 1
      + (gath2 N E C wf).offCoord (ix2 e f) 1 = f.val
    have hs : (gath2 N E C wf).start (ix2 e f) idx 1 = 0 := by
      unfold GatherDims.start
      rw [dif_neg (show (1 : Fin 2) ∉ [(0 : Fin 2)] by decide)]
    have ho : (gath2 N E C wf).offCoord (ix2 e f) 1 = f.val := by
      unfold GatherDims.offCoord
      rw [dif_pos ((GatherDims.mem_sKept _ _).2 ⟨show (1 : Fin 2) ∉ [(0 : Fin 2)] by decide, List.not_mem_nil⟩)]
      rfl
    rw [GatherDims.batchCoord_eq_zero _ _ _ List.not_mem_nil, hs, ho]
    omega

/-! ## The law: a factor moves into a sum over a finite set -/

theorem coe_nonneg_mul_sum {ι : Type} (S : Finset ι) (g : ι → EReal) (r : ℝ) (hr : 0 ≤ r) :
    (r : EReal) * ∑ e ∈ S, g e = ∑ e ∈ S, (r : EReal) * g e := by
  classical
  induction S using Finset.induction_on with
  | empty => simp
  | insert a S ha ih =>
    rw [Finset.sum_insert ha, Finset.sum_insert ha,
      EReal.left_distrib_of_nonneg_of_ne_top (EReal.coe_nonneg.2 hr) (EReal.coe_ne_top r), ih]

/-- `c · (0 + Σ_S g) = 0 + Σ_S g'` when `c · g e = g' e` on `S` and `c` is a real number ≥ 0 unless `S` is empty:
    over an empty set both sides are `0` whatever `c` is (`+∞ · 0 = 0` on the extended reals), and a real factor ≥ 0
    distributes over any extended-real sum. -/
theorem scale_sum {ι : Type} (S : Finset ι) (g g' : ι → EReal) (c : EReal)
    (hc : S.Nonempty → ∃ r : ℝ, 0 ≤ r ∧ c = (r : EReal)) (h : ∀ e ∈ S, c * g e = g' e) :
    c * (0 + ∑ e ∈ S, g e) = 0 + ∑ e ∈ S, g' e := by
  rw [zero_add, zero_add]
  rcases S.eq_empty_or_nonempty with rfl | hS
  · simp
  · obtain ⟨r, hr, rfl⟩ := hc hS
    rw [coe_nonneg_mul_sum S g r hr]
    exact Finset.sum_congr rfl h

/-- The inverse square root of the size of a nonempty finite set (counted as a sum of ones) is a real number ≥ 0. -/
theorem rsqrt_count {ι : Type} (S : Finset ι) (hS : S.Nonempty) :
    ∃ r : ℝ, 0 ≤ r ∧ Ideal.rsqrt (0 + ∑ _e ∈ S, (1 : EReal)) = (r : EReal) := by
  have h1 : (0 : EReal) + ∑ _e ∈ S, (1 : EReal) = ((S.card : ℝ) : EReal) := by
    rw [zero_add, Finset.sum_const, EReal.nsmul_eq_mul, mul_one]; rfl
  rw [h1]
  have hpos : (0 : ℝ) < S.card := by exact_mod_cast hS.card_pos
  refine ⟨(Real.sqrt S.card)⁻¹, inv_nonneg.2 (Real.sqrt_nonneg _), ?_⟩
  rw [Ideal.rsqrt_coe, if_neg (not_lt.2 hpos.le), if_neg hpos.ne']

/-- The words `1.0` and `+0.0` at the exact reading. -/
theorem ofBits_one : Ideal.ofBits .f32 0x3F800000#32 = 1 := by
  simp [Ideal.ofBits, Ideal.ieee, -EReal.coe_mul]; norm_num

/-! ## Columns and rows spread over a rank-2 array, read at an index -/

section Spread
variable {α : Type} {A B : Nat}

/-- `[A] → [A, 1]`: a list as a column. -/
theorem bcast_col_apply (h : (⟨1, ![A]⟩ : Shape).BroadcastsInDim ⟨2, ![A, 1]⟩ ![0]) (v : (⟨1, ![A]⟩ : Shape).Idx → α) (a : Fin A) :
    broadcastInDim ⟨2, ![A, 1]⟩ ![0] h v (ix2 a (0 : Fin 1)) = v (ix1 a) := by
  refine broadcastInDim_apply _ h v _ (ix1 a) fun b => ?_
  obtain rfl : b = 0 := Subsingleton.elim _ _
  show a.val = if A = 1 then 0 else a.val
  split
  · have := a.isLt; omega
  · rfl

/-- `[A, 1] → [A, B]`: a column repeated along the rows. -/
theorem bcast_cols_apply (h : (⟨2, ![A, 1]⟩ : Shape).BroadcastsInDim ⟨2, ![A, B]⟩ ![0, 1]) (v : (⟨2, ![A, 1]⟩ : Shape).Idx → α)
    (a : Fin A) (b : Fin B) :
    broadcastInDim ⟨2, ![A, B]⟩ ![0, 1] h v (ix2 a b) = v (ix2 a (0 : Fin 1)) := by
  refine broadcastInDim_apply _ h v _ (ix2 a (0 : Fin 1)) fun c => ?_
  match c with
  | ⟨0, _⟩ =>
    show a.val = if A = 1 then 0 else a.val
    split
    · have := a.isLt; omega
    · rfl
  | ⟨1, _⟩ =>
    show (0 : Nat) = if (1 : Nat) = 1 then 0 else b.val
    rfl

/-- `[B] → [1, B]`: a list as a row. -/
theorem bcast_row_apply (h : (⟨1, ![B]⟩ : Shape).BroadcastsInDim ⟨2, ![1, B]⟩ ![1]) (v : (⟨1, ![B]⟩ : Shape).Idx → α) (b : Fin B) :
    broadcastInDim ⟨2, ![1, B]⟩ ![1] h v (ix2 (0 : Fin 1) b) = v (ix1 b) := by
  refine broadcastInDim_apply _ h v _ (ix1 b) fun c => ?_
  obtain rfl : c = 0 := Subsingleton.elim _ _
  show b.val = if B = 1 then 0 else b.val
  split
  · have := b.isLt; omega
  · rfl

/-- `[1, B] → [A, B]`: a row repeated down the columns. -/
theorem bcast_rows_apply (h : (⟨2, ![1, B]⟩ : Shape).BroadcastsInDim ⟨2, ![A, B]⟩ ![0, 1]) (v : (⟨2, ![1, B]⟩ : Shape).Idx → α)
    (a : Fin A) (b : Fin B) :
    broadcastInDim ⟨2, ![A, B]⟩ ![0, 1] h v (ix2 a b) = v (ix2 (0 : Fin 1) b) := by
  refine broadcastInDim_apply _ h v _ (ix2 (0 : Fin 1) b) fun c => ?_
  match c with
  | ⟨0, _⟩ =>
    show (0 : Nat) = if (1 : Nat) = 1 then 0 else a.val
    rfl
  | ⟨1, _⟩ =>
    show b.val = if B = 1 then 0 else b.val
    split
    · have := b.isLt; omega
    · rfl

end Spread

/-! ## Node numbers counted from the end -/

/-- A word that is not negative as a signed integer is kept by `select (v < 0) (v + n) v`. -/
theorem wrap_of_nonneg (v c : BitVec 32) (h : 0 ≤ v.toInt) :
    Scalar.select (IntOp.cmpi .slt v 0#32) (IntOp.addi v c) v = v := by
  have hs : IntOp.cmpi .slt v 0#32 = 0#1 := by
    unfold IntOp.cmpi
    have : v.slt 0#32 = false := by
      rw [BitVec.slt]; simp only [BitVec.toInt_zero]; exact decide_eq_false (by omega)
    rw [this]; rfl
  rw [hs]; exact select_zero _ _

/-! ## The two spellings of a degree-normalised aggregation agree -/

/-- With `dis = (number of edges arriving)^(-1/2)` (`hdis`) and every edge that arrives at `n` reading row `n` through its
    wrapped destination (`hD'`): scaling the rows by `dis` before the sum and the sum by `dis n` after it is the sum of the
    rows each weighted by `dis[src] · dis[dst]`. The rows `h` are arbitrary extended reals. -/
theorem agg_eq (hN : 0 < N) (D S' D' : IVec ⟨2, ![E, 1]⟩ w) (disv : (⟨1, ![N]⟩ : Shape).Idx → EReal)
    (hdis : ∀ n : Fin N, disv (ix1 n) = Ideal.rsqrt (0 + ∑ _e ∈ into D n, (1 : EReal)))
    (hD' : ∀ (n : Fin N) (e : Fin E), key D e = (n.val : Int) → row hN D' e = n)
    (h : (⟨2, ![N, C]⟩ : Shape).Idx → EReal) (n : Fin N) (f : Fin C) :
    disv (ix1 n) * (0 + ∑ e ∈ into D n, h (ix2 (row hN S' e) f) * disv (ix1 (row hN S' e)))
      = 0 + ∑ e ∈ into D n, h (ix2 (row hN S' e) f) * (disv (ix1 (row hN S' e)) * disv (ix1 (row hN D' e))) := by
  refine scale_sum (into D n) _ _ (disv (ix1 n)) (fun hS => ?_) (fun e he => ?_)
  · rw [hdis]; exact rsqrt_count _ hS
  · rw [hD' n e (Finset.mem_filter.1 he).2, mul_left_comm, mul_comm (disv (ix1 n))]

/-! ## A plain matrix product on the host, read at an index -/

/-- `[M, K] × [K, P]` contracted over the one shared axis: entry `(r, c)` is `Σ_k x[r, k] · w[k, c]`. -/
theorem plain_dot_apply {M K P : Nat} {φ₁ φ₂ : FTy} (prec : Option ContractPrecision) (sched : HostSchedule)
    (x : FVec Ideal ⟨2, ![M, K]⟩ φ₁) (y : FVec Ideal ⟨2, ![K, P]⟩ φ₂) (r : Fin M) (c : Fin P) :
    FloatOps.dotGeneral (DotDims.plain M K P) prec sched x y (ix2 r c) = ∑ k : Fin K, x (ix2 r k) * y (ix2 k c) := by
  rw [Ideal.dotGeneral_apply]
  rw [← Equiv.sum_comp (contrEquiv1 (DotDims.plain M K P) K rfl rfl).symm]
  refine Finset.sum_congr rfl fun k _ => ?_
  have hl : (DotDims.plain M K P).lhsIdx (ix2 r c) ((contrEquiv1 (DotDims.plain M K P) K rfl rfl).symm k) = ix2 r k := by
    funext a; refine Fin.ext ?_
    match a with
    | ⟨0, _⟩ => rfl
    | ⟨1, _⟩ =>
      exact ((DotDims.plain M K P).lhsIdx_val_of_single (cl := 1) rfl _ _).trans
        (contrEquiv1_symm_val (DotDims.plain M K P) K rfl rfl k)
  have hr : (DotDims.plain M K P).rhsIdx (ix2 r c) ((contrEquiv1 (DotDims.plain M K P) K rfl rfl).symm k) = ix2 k c := by
    funext a; refine Fin.ext ?_
    match a with
    | ⟨0, _⟩ =>
      exact ((DotDims.plain M K P).rhsIdx_val_of_single (cr := 0) rfl _ _).trans
        (contrEquiv1_symm_val (DotDims.plain M K P) K rfl rfl k)
    | ⟨1, _⟩ => rfl
  rw [hl, hr]

/-! ## The host operations' names at the exact reading -/

section Names
variable {s si su sl sr so : Shape} {φ φ₁ φ₂ : FTy}

theorem hostScatterAdd_eq (d : ScatterDims s si su) (x : FVec Ideal s φ) (idx : IVec si w) (upd : FVec Ideal su φ) :
    Host.scatterAdd d x idx upd = Ideal.hostScatterAdd d x idx upd := rfl

theorem hostRsqrt_apply (x : FVec Ideal s φ) (i : s.Idx) : Host.rsqrt x i = Ideal.rsqrt (x i) := rfl

end Names

end Cert.LibEdgeSum

end
-- ==== Proof.Bridge.lean ====
/-
  The kernel's rearranged graph convolution is the reference's.

  Both programs build the same edge list, degrees and `dis = deg^(-1/2)` from the edge array (the shared stages are the
  same terms). A layer of the kernel, `dis[n] · Σ_{e → n} (h[src e] · dis[src e]) + b`, is the reference's
  `Σ_{e → n} h[src e] · (dis[src e] · dis[dst e]) + b`: the sums run over the same edges (those whose destination word
  is `n`), on such an edge the destination read back through the gather IS `n`, and `dis[n]` moves into the sum because
  it is the inverse square root of the number of those very edges — a real number ≥ 0 unless there is none, and then
  both sums are empty. No property of the features `h` is used: they may be any extended reals.
-/
import proofs.«131130_j62904091018060_2_alg».proof.Proof.KerTerm
import proofs.«131130_j62904091018060_2_alg».proof.Proof.RefTerm
import proofs.«131130_j62904091018060_2_alg».proof.Proof.LibEdgeSum

noncomputable section

open scoped BigOperators

namespace Cert.Bridge

open Idealize.ShloMosaic Idealize.ShloMosaic.ValueIdx Cert.LibEdgeSum
open Cert.KernelIdeal (KerTerm.src KerTerm.dst KerTerm.col KerTerm.wrap KerTerm.deg KerTerm.dis KerTerm.disB KerTerm.disC KerTerm.conv)
open Cert.ReferenceIdeal (RefTerm.src RefTerm.dst RefTerm.col RefTerm.wrap RefTerm.deg RefTerm.dis RefTerm.enorm RefTerm.conv128 RefTerm.conv64)

abbrev EI := IVec ⟨2, ![2, 800000]⟩ 32

/-! ## The shared stages are the same terms -/

theorem src_eq (ei : EI) : Cert.ReferenceIdeal.RefTerm.src ei = Cert.KernelIdeal.KerTerm.src ei := rfl
theorem dst_eq (ei : EI) : Cert.ReferenceIdeal.RefTerm.dst ei = Cert.KernelIdeal.KerTerm.dst ei := rfl
theorem col_eq (v : IVec ⟨1, ![850000]⟩ 32) : Cert.ReferenceIdeal.RefTerm.col v = Cert.KernelIdeal.KerTerm.col v := rfl
theorem wrap_eq (v : IVec ⟨1, ![850000]⟩ 32) : Cert.ReferenceIdeal.RefTerm.wrap v = Cert.KernelIdeal.KerTerm.wrap v := rfl
theorem dis_eq (ei : EI) : Cert.ReferenceIdeal.RefTerm.dis ei = Cert.KernelIdeal.KerTerm.dis ei := rfl
theorem leaky_eq (x : FVec Ideal ⟨2, ![50000, 128]⟩ .f32) :
    Cert.ReferenceIdeal.RefTerm.leaky x = Cert.KernelIdeal.KerTerm.leaky x := rfl

/-! ## The edge columns, and `dis` at a node -/

theorem hN : 0 < 50000 := by decide

/-- The raw destinations, and the wrapped sources and destinations, as index columns. -/
abbrev D (ei : EI) : IVec ⟨2, ![850000, 1]⟩ 32 := Cert.KernelIdeal.KerTerm.col (Cert.KernelIdeal.KerTerm.dst ei)
abbrev S' (ei : EI) : IVec ⟨2, ![850000, 1]⟩ 32 :=
  Cert.KernelIdeal.KerTerm.col (Cert.KernelIdeal.KerTerm.wrap (Cert.KernelIdeal.KerTerm.src ei))
abbrev D' (ei : EI) : IVec ⟨2, ![850000, 1]⟩ 32 :=
  Cert.KernelIdeal.KerTerm.col (Cert.KernelIdeal.KerTerm.wrap (Cert.KernelIdeal.KerTerm.dst ei))

/-- The word an index column holds for edge `e`. -/
theorem key_col (v : IVec ⟨1, ![850000]⟩ 32) (e : Fin 850000) :
    key (Cert.KernelIdeal.KerTerm.col v) e = (v (ix1 e)).toInt := by
  unfold key Cert.KernelIdeal.KerTerm.col
  exact congrArg BitVec.toInt (bcast_col_apply _ v e)

/-- A node number that is not negative is kept by the wrap. -/
theorem wrap_apply_of_nonneg (v : IVec ⟨1, ![850000]⟩ 32) (e : Fin 850000) (h : 0 ≤ (v (ix1 e)).toInt) :
    Cert.KernelIdeal.KerTerm.wrap v (ix1 e) = v (ix1 e) :=
  wrap_of_nonneg (v (ix1 e)) 50000#32 h

/-- An edge whose destination word is the node `n` reads row `n` through its wrapped destination. -/
theorem row_D' (ei : EI) (n : Fin 50000) (e : Fin 850000) (h : key (D ei) e = (n.val : Int)) : row hN (D' ei) e = n := by
  refine row_of_key hN _ e n ?_
  rw [key_col] at h ⊢
  rw [wrap_apply_of_nonneg _ e (by omega)]
  exact h

/-- `dis` at node `n`: the inverse square root of the number of edges whose destination word is `n`. -/
theorem dis_apply (ei : EI) (n : Fin 50000) :
    Cert.KernelIdeal.KerTerm.dis ei (ix1 n) = Ideal.rsqrt (0 + ∑ _e ∈ into (D ei) n, (1 : EReal)) := by
  unfold Cert.KernelIdeal.KerTerm.dis Cert.KernelIdeal.KerTerm.deg
  rw [hostRsqrt_apply, hostScatterAdd_eq]
  refine congrArg Ideal.rsqrt
    ((scatterAdd1_apply Cert.KernelIdeal.Facts₀.scatter_S50000_S850000x1_S850000_n_0_0_1_wf _ (D ei) _ n).trans ?_)
  refine congrArg₂ (· + ·) ?_ ?_
  · exact Ideal.ofBits_zero_f32
  · exact Finset.sum_congr rfl fun e _ => ofBits_one

/-- `dis` spread over the feature columns. -/
theorem disB_apply (ei : EI) (n : Fin 50000) (f : Fin 128) :
    Cert.KernelIdeal.KerTerm.disB ei (ix2 n f) = Cert.KernelIdeal.KerTerm.dis ei (ix1 n) := by
  unfold Cert.KernelIdeal.KerTerm.disB Cert.KernelIdeal.KerTerm.disC
  exact (bcast_cols_apply _ _ n f).trans (bcast_col_apply _ _ n)

/-! ## A layer read at an index -/

/-- The kernel's layer at `(n, f)`. -/
theorem ker_conv_apply (ei : EI) (h : FVec Ideal ⟨2, ![50000, 128]⟩ .f32) (b : FVec Ideal ⟨1, ![128]⟩ .f32)
    (n : Fin 50000) (f : Fin 128) :
    Cert.KernelIdeal.KerTerm.conv ei h b (ix2 n f)
      = Cert.KernelIdeal.KerTerm.dis ei (ix1 n)
          * (0 + ∑ e ∈ into (D ei) n, h (ix2 (row hN (S' ei) e) f) * Cert.KernelIdeal.KerTerm.dis ei (ix1 (row hN (S' ei) e)))
        + b (ix1 f) := by
  unfold Cert.KernelIdeal.KerTerm.conv
  rw [addf_apply, mulf_apply, disB_apply, hostScatterAdd_eq]
  refine congrArg₂ (· + ·) ?_ ?_
  · refine congrArg (Cert.KernelIdeal.KerTerm.dis ei (ix1 n) * ·) ?_
    refine (scatterAdd2_apply Cert.KernelIdeal.Facts₀.scatter_S50000x128_S850000x1_S850000x128_1_0_0_1_wf _ (D ei) _ n f).trans ?_
    refine congrArg₂ (· + ·) ?_ ?_
    · exact Ideal.ofBits_zero_f32
    · refine Finset.sum_congr rfl fun e _ => ?_
      refine (gather2_apply hN Cert.KernelIdeal.Facts₀.gather_S50000x128_S850000x1_S850000x128_1_0_n_n_0_1_1128_wf _ (S' ei) e f).trans ?_
      rw [mulf_apply, disB_apply]
  · exact (bcast_rows_apply _ _ n f).trans (bcast_row_apply _ _ f)

/-- The reference's layer on 128 features at `(n, f)`. -/
theorem ref_conv128_apply (ei : EI) (h : FVec Ideal ⟨2, ![50000, 128]⟩ .f32) (b : FVec Ideal ⟨1, ![128]⟩ .f32)
    (n : Fin 50000) (f : Fin 128) :
    Cert.ReferenceIdeal.RefTerm.conv128 ei h b (ix2 n f)
      = (0 + ∑ e ∈ into (D ei) n, h (ix2 (row hN (S' ei) e) f)
          * (Cert.KernelIdeal.KerTerm.dis ei (ix1 (row hN (S' ei) e)) * Cert.KernelIdeal.KerTerm.dis ei (ix1 (row hN (D' ei) e))))
        + b (ix1 f) := by
  unfold Cert.ReferenceIdeal.RefTerm.conv128
  rw [addf_apply, hostScatterAdd_eq]
  refine congrArg₂ (· + ·) ?_ ?_
  · refine (scatterAdd2_apply Cert.ReferenceIdeal.Facts₀.scatter_S50000x128_S850000x1_S850000x128_1_0_0_1_wf _ (D ei) _ n f).trans ?_
    refine congrArg₂ (· + ·) ?_ ?_
    · exact Ideal.ofBits_zero_f32
    · refine Finset.sum_congr rfl fun e _ => ?_
      rw [mulf_apply]
      refine congrArg₂ (· * ·) ?_ ?_
      · exact gather2_apply hN Cert.ReferenceIdeal.Facts₀.gather_S50000x128_S850000x1_S850000x128_1_0_n_n_0_1_1128_wf _ (S' ei) e f
      · refine (bcast_cols_apply _ _ e f).trans ((bcast_col_apply _ _ e).trans ?_)
        unfold Cert.ReferenceIdeal.RefTerm.enorm
        rw [mulf_apply]
        refine congrArg₂ (· * ·) ?_ ?_
        · exact gather1_apply hN Cert.ReferenceIdeal.Facts₀.gather_S50000_S850000x1_S850000_n_0_n_n_0_1_1_wf _ (S' ei) e
        · exact gather1_apply hN Cert.ReferenceIdeal.Facts₀.gather_S50000_S850000x1_S850000_n_0_n_n_0_1_1_wf _ (D' ei) e
  · exact (bcast_rows_apply _ _ n f).trans (bcast_row_apply _ _ f)

/-- The reference's layer on 64 features at `(n, f)`. -/
theorem ref_conv64_apply (ei : EI) (h : FVec Ideal ⟨2, ![50000, 64]⟩ .f32) (b : FVec Ideal ⟨1, ![64]⟩ .f32)
    (n : Fin 50000) (f : Fin 64) :
    Cert.ReferenceIdeal.RefTerm.conv64 ei h b (ix2 n f)
      = (0 + ∑ e ∈ into (D ei) n, h (ix2 (row hN (S' ei) e) f)
          * (Cert.KernelIdeal.KerTerm.dis ei (ix1 (row hN (S' ei) e)) * Cert.KernelIdeal.KerTerm.dis ei (ix1 (row hN (D' ei) e))))
        + b (ix1 f) := by
  unfold Cert.ReferenceIdeal.RefTerm.conv64
  rw [addf_apply, hostScatterAdd_eq]
  refine congrArg₂ (· + ·) ?_ ?_
  · refine (scatterAdd2_apply Cert.ReferenceIdeal.Facts₀.scatter_S50000x64_S850000x1_S850000x64_1_0_0_1_wf _ (D ei) _ n f).trans ?_
    refine congrArg₂ (· + ·) ?_ ?_
    · exact Ideal.ofBits_zero_f32
    · refine Finset.sum_congr rfl fun e _ => ?_
      rw [mulf_apply]
      refine congrArg₂ (· * ·) ?_ ?_
      · exact gather2_apply hN Cert.ReferenceIdeal.Facts₀.gather_S50000x64_S850000x1_S850000x64_1_0_n_n_0_1_164_wf _ (S' ei) e f
      · refine (bcast_cols_apply _ _ e f).trans ((bcast_col_apply _ _ e).trans ?_)
        unfold Cert.ReferenceIdeal.RefTerm.enorm
        rw [mulf_apply]
        refine congrArg₂ (· * ·) ?_ ?_
        · exact gather1_apply hN Cert.ReferenceIdeal.Facts₀.gather_S50000_S850000x1_S850000_n_0_n_n_0_1_1_wf _ (S' ei) e
        · exact gather1_apply hN Cert.ReferenceIdeal.Facts₀.gather_S50000_S850000x1_S850000_n_0_n_n_0_1_1_wf _ (D' ei) e
  · exact (bcast_rows_apply _ _ n f).trans (bcast_row_apply _ _ f)

/-! ## One layer of the kernel is one layer of the reference -/

theorem conv128_eq (ei : EI) (h : FVec Ideal ⟨2, ![50000, 128]⟩ .f32) (b : FVec Ideal ⟨1, ![128]⟩ .f32) :
    Cert.KernelIdeal.KerTerm.conv ei h b = Cert.ReferenceIdeal.RefTerm.conv128 ei h b := by
  funext i
  obtain ⟨n, f, rfl⟩ : ∃ (n : Fin 50000) (f : Fin 128), i = ix2 n f := ⟨i 0, i 1, eq_ix2 i⟩
  rw [ker_conv_apply, ref_conv128_apply]
  exact congrArg (· + b (ix1 f))
    (agg_eq hN (D ei) (S' ei) (D' ei) (Cert.KernelIdeal.KerTerm.dis ei) (dis_apply ei) (row_D' ei) h n f)

/-- The kernel's layer on 128 columns, read at a column `up f` on which its rows and bias restrict to a 64-column
    layer's (`hH`, `hb`), is that layer of the reference at column `f`. -/
theorem conv_up_eq (ei : EI) (H : FVec Ideal ⟨2, ![50000, 128]⟩ .f32) (G : FVec Ideal ⟨2, ![50000, 64]⟩ .f32)
    (bK : FVec Ideal ⟨1, ![128]⟩ .f32) (bR : FVec Ideal ⟨1, ![64]⟩ .f32) (up : Fin 64 → Fin 128)
    (hH : ∀ (r : Fin 50000) (f : Fin 64), H (ix2 r (up f)) = G (ix2 r f)) (hb : ∀ f : Fin 64, bK (ix1 (up f)) = bR (ix1 f))
    (n : Fin 50000) (f : Fin 64) :
    Cert.KernelIdeal.KerTerm.conv ei H bK (ix2 n (up f)) = Cert.ReferenceIdeal.RefTerm.conv64 ei G bR (ix2 n f) := by
  rw [ker_conv_apply, ref_conv64_apply, hb]
  refine congrArg (· + bR (ix1 f)) ?_
  rw [Finset.sum_congr rfl fun e _ => by rw [hH]]
  exact agg_eq hN (D ei) (S' ei) (D' ei) (Cert.KernelIdeal.KerTerm.dis ei) (dis_apply ei) (row_D' ei) G n f

/-! ## The matrix products -/

/-- Region 0's whole product is the reference's first `dot_general`. -/
theorem mm0_eq (x : FVec Ideal ⟨2, ![50000, 256]⟩ .f32) (W1 : FVec Ideal ⟨2, ![256, 128]⟩ .f32) :
    Host.dotGeneral Cert.ReferenceIdeal.dot_S50000x256_S256x128_S50000x128_1_0_0_1_n_n none x W1
      = Cert.KernelIdeal.KerTerm.mm0 x W1 := by
  funext i
  obtain ⟨r, c, rfl⟩ : ∃ (r : Fin 50000) (c : Fin 128), i = ix2 r c := ⟨i 0, i 1, eq_ix2 i⟩
  show FloatOps.dotGeneral (DotDims.plain 50000 256 128) none .single x W1 (ix2 r c) = _
  rw [plain_dot_apply]
  exact Finset.sum_congr rfl fun k _ => rfl

/-- Region 1's whole product against the two heads' weights side by side, read in the left half, is the product with
    the left weights … -/
theorem mm1_left (h : FVec Ideal ⟨2, ![50000, 128]⟩ .f32) (Wl Wr : FVec Ideal ⟨2, ![128, 64]⟩ .f32) (r : Fin 50000) (f : Fin 64) :
    Cert.KernelIdeal.KerTerm.mm1 h (Cert.KernelIdeal.KerTerm.wcat Wl Wr) (ix2 r ⟨f.val, by omega⟩)
      = Host.dotGeneral Cert.ReferenceIdeal.dot_S50000x128_S128x64_S50000x64_1_0_0_1_n_n none h Wl (ix2 r f) := by
  show _ = FloatOps.dotGeneral (DotDims.plain 50000 128 64) none .single h Wl (ix2 r f)
  rw [plain_dot_apply]
  refine Finset.sum_congr rfl fun k _ => ?_
  refine congrArg₂ (· * ·) rfl ?_
  unfold Cert.KernelIdeal.KerTerm.wcat
  refine concatenate_pair_apply_left (t := Cert.KernelIdeal.S128x128) (1 : Fin 2) Wl Wr _ _ rfl (ix2 k f) ?_
  intro b
  match b with
  | ⟨0, _⟩ => rfl
  | ⟨1, _⟩ => rfl

/-- … and in the right half with the right weights. -/
theorem mm1_right (h : FVec Ideal ⟨2, ![50000, 128]⟩ .f32) (Wl Wr : FVec Ideal ⟨2, ![128, 64]⟩ .f32) (r : Fin 50000) (f : Fin 64) :
    Cert.KernelIdeal.KerTerm.mm1 h (Cert.KernelIdeal.KerTerm.wcat Wl Wr) (ix2 r ⟨64 + f.val, by omega⟩)
      = Host.dotGeneral Cert.ReferenceIdeal.dot_S50000x128_S128x64_S50000x64_1_0_0_1_n_n none h Wr (ix2 r f) := by
  show _ = FloatOps.dotGeneral (DotDims.plain 50000 128 64) none .single h Wr (ix2 r f)
  rw [plain_dot_apply]
  refine Finset.sum_congr rfl fun k _ => ?_
  refine congrArg₂ (· * ·) rfl ?_
  unfold Cert.KernelIdeal.KerTerm.wcat
  refine concatenate_pair_apply_right (t := Cert.KernelIdeal.S128x128) (1 : Fin 2) Wl Wr _ _ rfl rfl (ix2 k f) ?_ ?_
  · intro b hb
    match b with
    | ⟨0, _⟩ => rfl
    | ⟨1, _⟩ => exact absurd rfl hb
  · show f.val + 64 = 64 + f.val
    omega

/-- The two heads' biases end to end, read in each half. -/
theorem bcat_left (bl br : FVec Ideal ⟨1, ![64]⟩ .f32) (f : Fin 64) :
    Cert.KernelIdeal.KerTerm.bcat bl br (ix1 ⟨f.val, by omega⟩) = bl (ix1 f) := by
  unfold Cert.KernelIdeal.KerTerm.bcat
  refine concatenate_pair_apply_left (t := Cert.KernelIdeal.S128) (0 : Fin 1) bl br _ _ rfl (ix1 f) ?_
  intro b
  obtain rfl : b = 0 := Subsingleton.elim _ _
  rfl

theorem bcat_right (bl br : FVec Ideal ⟨1, ![64]⟩ .f32) (f : Fin 64) :
    Cert.KernelIdeal.KerTerm.bcat bl br (ix1 ⟨64 + f.val, by omega⟩) = br (ix1 f) := by
  unfold Cert.KernelIdeal.KerTerm.bcat
  refine concatenate_pair_apply_right (t := Cert.KernelIdeal.S128) (0 : Fin 1) bl br _ _ rfl rfl (ix1 f) ?_ ?_
  · intro b hb
    obtain rfl : b = 0 := Subsingleton.elim _ _
    exact absurd rfl hb
  · show f.val + 64 = 64 + f.val
    omega

/-! ## The hidden layer and the two heads -/

theorem hid_eq (x : FVec Ideal ⟨2, ![50000, 256]⟩ .f32) (ei : EI) (W1 : FVec Ideal ⟨2, ![256, 128]⟩ .f32)
    (b1 : FVec Ideal ⟨1, ![128]⟩ .f32) :
    Cert.KernelIdeal.KerTerm.hid x ei W1 b1 = Cert.ReferenceIdeal.RefTerm.hid x ei W1 b1 := by
  unfold Cert.KernelIdeal.KerTerm.hid Cert.ReferenceIdeal.RefTerm.hid
  rw [leaky_eq, mm0_eq, conv128_eq]

/-- The mean: columns `0 … 63` of the kernel's 128-column layer. -/
theorem mu_eq (x : FVec Ideal ⟨2, ![50000, 256]⟩ .f32) (ei : EI) (W1 : FVec Ideal ⟨2, ![256, 128]⟩ .f32)
    (b1 : FVec Ideal ⟨1, ![128]⟩ .f32) (Wmu : FVec Ideal ⟨2, ![128, 64]⟩ .f32) (bmu : FVec Ideal ⟨1, ![64]⟩ .f32)
    (Wlv : FVec Ideal ⟨2, ![128, 64]⟩ .f32) (blv : FVec Ideal ⟨1, ![64]⟩ .f32) :
    Cert.KernelIdeal.KerTerm.mu x ei W1 b1 Wmu bmu Wlv blv = Cert.ReferenceIdeal.RefTerm.head x ei W1 b1 Wmu bmu := by
  funext i
  obtain ⟨n, f, rfl⟩ : ∃ (n : Fin 50000) (f : Fin 64), i = ix2 n f := ⟨i 0, i 1, eq_ix2 i⟩
  unfold Cert.KernelIdeal.KerTerm.mu Cert.KernelIdeal.KerTerm.out Cert.ReferenceIdeal.RefTerm.head
  rw [extractStridedSlice_apply _ _ _ (ix2 n f) (ix2 n (⟨f.val, by omega⟩ : Fin 128)) (fun a => by
    match a with
    | ⟨0, _⟩ => exact (Nat.zero_add _).symm
    | ⟨1, _⟩ => exact (Nat.zero_add _).symm)]
  rw [← hid_eq]
  exact conv_up_eq ei _ _ _ _ (fun f => ⟨f.val, by omega⟩) (fun r f => mm1_left _ Wmu Wlv r f)
    (fun f => bcat_left bmu blv f) n f

/-- The log-variance: columns `64 … 127`. -/
theorem lv_eq (x : FVec Ideal ⟨2, ![50000, 256]⟩ .f32) (ei : EI) (W1 : FVec Ideal ⟨2, ![256, 128]⟩ .f32)
    (b1 : FVec Ideal ⟨1, ![128]⟩ .f32) (Wmu : FVec Ideal ⟨2, ![128, 64]⟩ .f32) (bmu : FVec Ideal ⟨1, ![64]⟩ .f32)
    (Wlv : FVec Ideal ⟨2, ![128, 64]⟩ .f32) (blv : FVec Ideal ⟨1, ![64]⟩ .f32) :
    Cert.KernelIdeal.KerTerm.lv x ei W1 b1 Wmu bmu Wlv blv = Cert.ReferenceIdeal.RefTerm.head x ei W1 b1 Wlv blv := by
  funext i
  obtain ⟨n, f, rfl⟩ : ∃ (n : Fin 50000) (f : Fin 64), i = ix2 n f := ⟨i 0, i 1, eq_ix2 i⟩
  unfold Cert.KernelIdeal.KerTerm.lv Cert.KernelIdeal.KerTerm.out Cert.ReferenceIdeal.RefTerm.head
  rw [extractStridedSlice_apply _ _ _ (ix2 n f) (ix2 n (⟨64 + f.val, by omega⟩ : Fin 128)) (fun a => by
    match a with
    | ⟨0, _⟩ => exact (Nat.zero_add _).symm
    | ⟨1, _⟩ => rfl)]
  rw [← hid_eq]
  exact conv_up_eq ei _ _ _ _ (fun f => ⟨64 + f.val, by omega⟩) (fun r f => mm1_right _ Wmu Wlv r f)
    (fun f => bcat_right bmu blv f) n f

end Cert.Bridge

end
-- ==== Proof.lean ====
/-
  The certificate of a two-layer graph-convolution encoder (a hidden layer with a leaky ReLU, then a mean head and a
  log-variance head) against its jnp reference, over the extended reals.

  The reference weighs every edge by `dis[src] · dis[dst]`, `dis = deg^(-1/2)`, before it adds the gathered rows up at
  the destinations; the kernel program scales the rows by `dis` before the gather and the sums by `dis` after the
  scatter-add, computes both heads as one layer on the 128 columns `[W_mu | W_logvar]` and cuts the halves apart at
  the end, and runs its two matrix products as row-blocked kernel regions. Each program's run is read back as one
  pure term of the eight arguments (the kernel's with the two regions' arrays as whole products); the two terms are
  equal index by index (Proof/Bridge.lean), with no hypothesis on the float inputs: `dis[n]` is the inverse square
  root of the number of edges arriving at `n`, so it is a real number ≥ 0 whenever the sum it multiplies is not empty.
  The ideal pass rewrote nothing, so `preserves` is trivial; the kernel programs' frames are the generated ones, the
  reference's frame is its run with the results dropped.
-/
import proofs.«131130_j62904091018060_2_alg».proof.Defs
import proofs.«131130_j62904091018060_2_alg».proof.Proof.Gen.Kernel
import proofs.«131130_j62904091018060_2_alg».proof.Proof.Gen.Kernel.Frame
import proofs.«131130_j62904091018060_2_alg».proof.Proof.Gen.KernelIdeal
import proofs.«131130_j62904091018060_2_alg».proof.Proof.Gen.KernelIdeal.Frame
import proofs.«131130_j62904091018060_2_alg».proof.Proof.Gen.ReferenceIdeal
import proofs.«131130_j62904091018060_2_alg».proof.Proof.Gen.Pre_finite_inputs
import proofs.«131130_j62904091018060_2_alg».proof.Proof.KerRun
import proofs.«131130_j62904091018060_2_alg».proof.Proof.RefRun
import proofs.«131130_j62904091018060_2_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.RefRun.run m ρ)

/-- Both programs end, the kernel's two results at the reference's: the two runs read back as terms of the arguments,
    the arguments' agreement rewritten, and the terms equal (`Cert.Bridge.mu_eq`, `Cert.Bridge.lv_eq`). -/
theorem algebraic : Cert.algebraic_KernelIdeal_ReferenceIdeal := by
  intro m ρ m' ρ' _ hagree
  refine ⟨_, _, Cert.KernelIdeal.KerRun.run m ρ, ?_⟩
  refine (θ_run Cert.ReferenceIdeal.defs _ _).mono
    (fun _ h c => ⟨(h c).1.trans ?_, (h c).2.1.trans ?_, (h c).2.2⟩) (Cert.ReferenceIdeal.RefRun.run m' ρ')
  · rw [(hagree c).1, (hagree c).2.1, (hagree c).2.2.1, (hagree c).2.2.2.1, (hagree c).2.2.2.2.1, (hagree c).2.2.2.2.2.1]
    exact (Cert.Bridge.mu_eq _ _ _ _ _ _ _ _).symm
  · rw [(hagree c).1, (hagree c).2.1, (hagree c).2.2.1, (hagree c).2.2.2.1, (hagree c).2.2.2.2.2.2.1, (hagree c).2.2.2.2.2.2.2]
    exact (Cert.Bridge.lv_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
